-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S8192 : Shape := ⟨1, ![8192]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x3 .f32) (main_arg1 : FVec F S8192 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x3 : Shape := ⟨2, ![8192, 3]⟩
abbrev S8192 : Shape := ⟨1, ![8192]⟩
abbrev S3x8192 : Shape := ⟨2, ![3, 8192]⟩
abbrev S1x8192 : Shape := ⟨2, ![1, 8192]⟩
abbrev S_ : Shape := ⟨0, ![]⟩
abbrev S8192x1 : Shape := ⟨2, ![8192, 1]⟩
abbrev S8192x124 : Shape := ⟨2, ![8192, 124]⟩
abbrev S8192x128 : Shape := ⟨2, ![8192, 128]⟩
abbrev S512x3 : Shape := ⟨2, ![512, 3]⟩
abbrev S512x128 : Shape := ⟨2, ![512, 128]⟩
abbrev S3x1024 : Shape := ⟨2, ![3, 1024]⟩
abbrev S1x1024 : Shape := ⟨2, ![1, 1024]⟩
abbrev S1024x128 : Shape := ⟨2, ![1024, 128]⟩
abbrev S512x1024 : Shape := ⟨2, ![512, 1024]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x3, .f32⟩
  | .hbm, ⟨1, _⟩ => ⟨S8192, .f32⟩
  | .hbm, ⟨2, _⟩ => ⟨S3x8192, .f32⟩
  | .hbm, ⟨3, _⟩ => ⟨S1x8192, .f32⟩
  | .hbm, ⟨4, _⟩ => ⟨S_, .f32⟩
  | .hbm, ⟨5, _⟩ => ⟨S8192x1, .f32⟩
  | .hbm, ⟨6, _⟩ => ⟨S_, .f32⟩
  | .hbm, ⟨7, _⟩ => ⟨S8192x124, .f32⟩
  | .hbm, ⟨8, _⟩ => ⟨S8192x128, .f32⟩
  | .hbm, ⟨9, _⟩ => ⟨S8192x3, .f32⟩
  | .local _ .vmem, ⟨0, _⟩ => ⟨S512x3, .f32⟩
  | .local _ .vmem, ⟨1, _⟩ => ⟨S512x3, .f32⟩
  | .local _ .vmem, ⟨2, _⟩ => ⟨S3x8192, .f32⟩
  | .local _ .vmem, ⟨3, _⟩ => ⟨S1x8192, .f32⟩
  | .local _ .vmem, ⟨4, _⟩ => ⟨S8192x128, .f32⟩
  | .local _ .vmem, ⟨5, _⟩ => ⟨S512x3, .f32⟩
  | .local _ .vmem, ⟨6, _⟩ => ⟨S512x3, .f32⟩
  | .local _ .vmem, ⟨7, _⟩ => ⟨S512x128, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_mult1 (k0_t1 : Fin k0_t1_loop.trips) : BitVec 32 :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v13 : BitVec 32 := Scalar.muli arg7 c1_i32_8
  let v14 : BitVec 32 := Scalar.addi c0_i32_9 v13
  let c1024_i32 : BitVec 32 := 1024#32
  let v15 : BitVec 32 := Scalar.muli v14 c1024_i32
  v15
def k0_off1 (k0_t1 : Fin k0_t1_loop.trips) : Fin 2 → Nat :=
  let c0_10 : Index := 0#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v13 : BitVec 32 := Scalar.muli arg7 c1_i32_8
  let v14 : BitVec 32 := Scalar.addi c0_i32_9 v13
  let c1024_i32 : BitVec 32 := 1024#32
  let v15 : BitVec 32 := Scalar.muli v14 c1024_i32
  let v16 : BitVec 32 := v15
  let v17 : Index := Scalar.indexCast v16
  ![0, v17.toNat]
def k0_off2 (k0_t1 : Fin k0_t1_loop.trips) : Fin 2 → Nat :=
  let c0_11 : Index := 0#32
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v13 : BitVec 32 := Scalar.muli arg7 c1_i32_8
  let v14 : BitVec 32 := Scalar.addi c0_i32_9 v13
  let c1024_i32 : BitVec 32 := 1024#32
  let v15 : BitVec 32 := Scalar.muli v14 c1024_i32
  let v16 : BitVec 32 := v15
  let v20 : Index := Scalar.indexCast v16
  ![0, v20.toNat]
def k0_off3 (k0_t1 : Fin k0_t1_loop.trips) : Fin 2 → Nat :=
  let c0_i32_9 : BitVec 32 := 0#32
  let c0_i32 : BitVec 32 := 0#32
  let c1_i32 : BitVec 32 := 1#32
  let arg7 : BitVec 32 := Scf.iv c0_i32 c1_i32 k0_t1
  let c1_i32_8 : BitVec 32 := 1#32
  let v13 : BitVec 32 := Scalar.muli arg7 c1_i32_8
  let v14 : BitVec 32 := Scalar.addi c0_i32_9 v13
  let c1024_i32 : BitVec 32 := 1024#32
  let v15 : BitVec 32 := Scalar.muli v14 c1024_i32
  let v16 : BitVec 32 := v15
  let v23 : Index := Scalar.indexCast v16
  let c0_12 : Index := 0#32
  ![v23.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S8192x3_S3x8192_1_0 : S8192x3.Transposes [1, 0] S3x8192
  shapeCasts_S8192_S1x8192 : S8192.ShapeCasts S1x8192
  bcast_S_S8192x1 : S_.BroadcastsInDim S8192x1 (![] : Fin 0 → Fin S8192x1.rank)
  bcast_S_S8192x124 : S_.BroadcastsInDim S8192x124 (![] : Fin 0 → Fin S8192x124.rank)
  concatenates_S8192x3_S8192x1_S8192x124_S8192x128_d1 : Shape.Concatenates [S8192x3, S8192x1, S8192x124] S8192x128 1
  inb_S512x3_S512x3_0_0 : ∀ a, (![0, 0] : Fin 2 → Nat) a + S512x3.size a ≤ S512x3.size a
  h_S512x3 : 0 < S512x3.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S3x1024 : 0 < S3x1024.numel
  shapeCasts_S3x1024_S3x1024 : S3x1024.ShapeCasts S3x1024
  h_S1x1024 : 0 < S1x1024.numel
  shapeCasts_S1x1024_S1x1024 : S1x1024.ShapeCasts S1x1024
  h_S1024x128 : 0 < S1024x128.numel
  shapeCasts_S1024x128_S1024x128 : S1024x128.ShapeCasts S1024x128
  slices_S512x3_o0_0_S512x1 : S512x3.Slices ![0, 0] S512x1
  slices_S3x1024_o0_0_S1x1024 : S3x1024.Slices ![0, 0] S1x1024
  broadcasts_S512x1_S512x1024 : S512x1.Broadcasts S512x1024
  broadcasts_S1x1024_S512x1024 : S1x1024.Broadcasts S512x1024
  slices_S512x3_o0_1_S512x1 : S512x3.Slices ![0, 1] S512x1
  slices_S3x1024_o1_0_S1x1024 : S3x1024.Slices ![1, 0] S1x1024
  slices_S512x3_o0_2_S512x1 : S512x3.Slices ![0, 2] S512x1
  slices_S3x1024_o2_0_S1x1024 : S3x1024.Slices ![2, 0] S1x1024
  iota_S512x1024_d0_w32 : S512x1024.Iotas .tc 32 [0]
  iota_S512x1024_d1_w32 : S512x1024.Iotas .tc 32 [1]
  slices_S512x128_o0_0_S512x3 : S512x128.Slices ![0, 0] S512x3
  slices_S512x128_o0_3_S512x1 : S512x128.Slices ![0, 3] S512x1
  broadcasts_S512x1_S512x3 : S512x1.Broadcasts S512x3
  dot_S512x1024_S1024x128_S512x128_1_0_0_1_n_n_wf : DotDims.WF S512x1024 S1024x128 S512x128 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S3x1024.size a ≤ S3x8192.size a
  k0_off2_inb : ∀ k0_t1 : Fin k0_t1_loop.trips, ∀ a, (k0_off2 k0_t1) a + S1x1024.size a ≤ S1x8192.size a
  k0_off3_inb : ∀ k0_t1 : Fin k0_t1_loop.trips, ∀ a, (k0_off3 k0_t1) a + S1024x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S8192x3.size a
  hwx0_0 : ∀ i : grid0.Coords, EltTy.bits .f32 = 32 ∨ (Rect.block (s := S8192x3) S512x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8192.size a ≤ S3x8192.size a
  hwx0_1 : ∀ i : grid0.Coords, EltTy.bits .f32 = 32 ∨ (Rect.block (s := S3x8192) S3x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .f32 = 32 ∨ (Rect.block (s := S8192x128) S8192x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x3.size a ≤ S8192x3.size a
  hwx0_4 : ∀ i : grid0.Coords, EltTy.bits .f32 = 32 ∨ (Rect.block (s := S8192x3) S512x3.size (cc0_transform_4 i) (hinb0_4 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x3 : Shape := ⟨2, ![8192, 3]⟩
abbrev S8192 : Shape := ⟨1, ![8192]⟩
abbrev S1x8192x3 : Shape := ⟨3, ![1, 8192, 3]⟩
abbrev S8192x1x3 : Shape := ⟨3, ![8192, 1, 3]⟩
abbrev S8192x8192x3 : Shape := ⟨3, ![8192, 8192, 3]⟩
abbrev S_ : Shape := ⟨0, ![]⟩
abbrev S8192x8192 : Shape := ⟨2, ![8192, 8192]⟩
abbrev S1x8192 : Shape := ⟨2, ![1, 8192]⟩
abbrev S8192x8192x1 : Shape := ⟨3, ![8192, 8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192, .f32⟩
  | .hbm, ⟨2, _⟩ => ⟨S1x8192x3, .f32⟩
  | .hbm, ⟨3, _⟩ => ⟨S8192x1x3, .f32⟩
  | .hbm, ⟨4, _⟩ => ⟨S8192x8192x3, .f32⟩
  | .hbm, ⟨5, _⟩ => ⟨S8192x8192x3, .f32⟩
  | .hbm, ⟨6, _⟩ => ⟨S8192x8192x3, .f32⟩
  | .hbm, ⟨7, _⟩ => ⟨S8192x8192x3, .f32⟩
  | .hbm, ⟨8, _⟩ => ⟨S_, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S1x8192, .f32⟩
  | .hbm, ⟨17, _⟩ => ⟨S_, .f32⟩
  | .hbm, ⟨18, _⟩ => ⟨S1x8192, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192x1, .f32⟩
  | .hbm, ⟨23, _⟩ => ⟨S8192x8192x3, .f32⟩
  | .hbm, ⟨24, _⟩ => ⟨S8192x8192x3, .f32⟩
  | .hbm, ⟨25, _⟩ => ⟨S_, .f32⟩
  | .hbm, ⟨26, _⟩ => ⟨S8192x3, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  bcast_S8192x3_S1x8192x3_1_2 : S8192x3.BroadcastsInDim S1x8192x3 (![1, 2] : Fin 2 → Fin S1x8192x3.rank)
  bcast_S8192x3_S8192x1x3_0_2 : S8192x3.BroadcastsInDim S8192x1x3 (![0, 2] : Fin 2 → Fin S8192x1x3.rank)
  bcast_S1x8192x3_S8192x8192x3_0_1_2 : S1x8192x3.BroadcastsInDim S8192x8192x3 (![0, 1, 2] : Fin 3 → Fin S8192x8192x3.rank)
  bcast_S8192x1x3_S8192x8192x3_0_1_2 : S8192x1x3.BroadcastsInDim S8192x8192x3 (![0, 1, 2] : Fin 3 → Fin S8192x8192x3.rank)
  reducesTo_S8192x8192x3_S8192x8192_d2 : S8192x8192x3.ReducesTo [2] S8192x8192
  h_S_ : 0 < S_.numel
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S1x8192_S8192x8192_0_1 : S1x8192.BroadcastsInDim S8192x8192 (![0, 1] : Fin 2 → Fin S8192x8192.rank)
  bcast_S8192x8192_S8192x8192x1_0_1 : S8192x8192.BroadcastsInDim S8192x8192x1 (![0, 1] : Fin 2 → Fin S8192x8192x1.rank)
  bcast_S8192x8192x1_S8192x8192x3_0_1_2 : S8192x8192x1.BroadcastsInDim S8192x8192x3 (![0, 1, 2] : Fin 3 → Fin S8192x8192x3.rank)
  reducesTo_S8192x8192x3_S8192x3_d1 : S8192x8192x3.ReducesTo [1] S8192x3

variable [Facts₀]

class Facts : Prop extends Facts₀ where

variable [Facts]
-- ==== Proof.FrameKitB.lean ====
/-
  The launch side of the program's one pipelined region, stated once for any float instance.

  The region is entered after seven host operations (a transpose of the positions, a reshape of the masses, two
  constants and their broadcasts, and the concatenation that builds the position table with its lane of ones);
  `V` is what each buffer holds at that moment, as the fold of those operations over the launch memory. None of
  them writes an argument array, so the two arguments are found as launched. A window's block at a grid point is
  read off its array through the block's rectangle, and an input window's staging buffer holds that block at every
  point. The frame claim follows from any run of the region that ends with every staged array at what the proof
  data computes and every other buffer as the region found it.
-/
import proofs.«135620_j89704686944627_2_alg».proof.Proof.Gen.Kernel.Launch
import proofs.«135620_j89704686944627_2_alg».proof.Proof.Gen.Kernel.Skeleton
import proofs.«135620_j89704686944627_2_alg».proof.Proof.Gen.Kernel.Loops
import proofs.«135620_j89704686944627_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the host operations' fold over the launch memory. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it
    there or not (not fetched, the block index has not moved), for any proof data over the region-entry arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it
    there or not (not fetched, the block index has not moved), for any proof data over the region-entry arrays whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it
    there or not (not fetched, the block index has not moved), for any proof data over the region-entry arrays whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it
    there or not (not fetched, the block index has not moved), for any proof data over the region-entry arrays whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- For any proof data over the region-entry arrays, a run ending with every staged array at what the proof data
    computes and every other buffer as the region found it leaves both argument arrays as launched: the
    positions are window 0's array, an input, and the masses are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The staging memrefs at a point -/

/-- One staging buffer of the output window, through which its contents are stated. -/
abbrev VO0_4 : View sig .tc .vmem S512x3 .f32 := (Memref.whole cc0_stg4_0 : Memref sig .tc .vmem S512x3 .f32).view
/-- Each window's current staging memref at point `t`, as the pipeline passes it to the body, and its wholeness. -/
abbrev ms0_0 (t : Fin cfg0.N) : Memref sig .tc .vmem S512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x3 .f32 := win0_4.stage (cfg0.slots t 4)
abbrev hs0_4 (t : Fin cfg0.N) : (ms0_4 t).IsWhole := hstage0_4 ((cfg0.slots t 4).cast nbuf0_4)
/-- The scratch accumulator, a whole buffer of the core. -/
abbrev msS : Memref sig .tc .vmem S512x128 .f32 := Memref.whole cc0_scratch0
abbrev hsS : (msS).IsWhole := Memref.isWhole_whole _

end Cert.Kernel.Hand

end
-- ==== Proof.RunB.lean ====
/-
  The kernel body run once, on any six whole staging memrefs: the position block, the transposed positions, the
  masses and the position table at given contents, the output block and the scratch accumulator at anything.
  The body zeroes the accumulator, adds one matrix product per chunk of 1024 particles in a counted loop of eight
  trips, and stores columns 0..2 minus the position block times column 3 into the output block. It runs to its
  end without a fault, returns the four inputs as it found them, and leaves the output block with the pieces its
  one store wrote (the witness below) and the accumulator at some contents.
-/
import proofs.«135620_j89704686944627_2_alg».proof.Proof.FrameKitB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's store leaves in the output block's staging memref, with the proof that the body runs
    to the continuation holding the inputs as they were, the output block with those pieces written, and the
    accumulator at some contents. -/
noncomputable def kernelRun0_A (c : Dev nD) (i : grid0.Coords) (arg1 : Memref sig .tc .vmem S512x3 .f32) (harg1 : arg1.IsWhole) (arg2 : Memref sig .tc .vmem S3x8192 .f32) (harg2 : arg2.IsWhole) (arg3 : Memref sig .tc .vmem S1x8192 .f32) (harg3 : arg3.IsWhole) (arg4 : Memref sig .tc .vmem S8192x128 .f32) (harg4 : arg4.IsWhole) (arg5 : Memref sig .tc .vmem S512x3 .f32) (harg5 : arg5.IsWhole) (arg6 : Memref sig .tc .vmem S512x128 .f32) (harg6 : arg6.IsWhole)
    (x0 : Vec F S512x3 .f32) (x1 : Vec F S3x8192 .f32) (x2 : Vec F S1x8192 .f32) (x3 : Vec F S8192x128 .f32) :
    { L4 : List (View.Piece (Elt F) S512x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} f)) -∗ K ⟨⟩))
          ⊢ wp frame (wpE (defs₀ (F := F)) Variants.none c none) E (cc0__pairwise_force_kernel i arg1 harg1 arg2 harg2 arg3 harg3 arg4 harg4 arg5 harg5 arg6 harg6) K } := by
  refine ⟨?_, fun E K => ?run⟩
  case run =>
    simp only [cc0__pairwise_force_kernel_eq_skeleton]; unfold cc0__pairwise_force_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.Kernel.Hand

end
-- ==== Proof.FrameB.lean ====
/-
  The frame of the program's one pipelined region.

  At each of the sixteen grid points the body finds the four input windows at their blocks (the position block of
  the point; the transposed positions, the masses and the position table whole), runs, and leaves the output
  block holding what its one store wrote. That store covers the block, so what the buffer reads afterwards does not
  depend on what it held before. The scratch accumulator is rewritten whole at the start of every point, so it is
  part of the region's invariant at some contents, as the generator register is. With this proof data the body
  obligation holds at every point, the region runs to its end, and both argument arrays end as launched.
-/
import proofs.«135620_j89704686944627_2_alg».proof.Proof.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's one store into the output block writes the whole block, so its pieces cover it. -/
theorem cover0_A_4 (c : Dev nD) (i : grid0.Coords) (arg1 : Memref sig .tc .vmem S512x3 .f32) (harg1 : arg1.IsWhole) (arg2 : Memref sig .tc .vmem S3x8192 .f32) (harg2 : arg2.IsWhole) (arg3 : Memref sig .tc .vmem S1x8192 .f32) (harg3 : arg3.IsWhole) (arg4 : Memref sig .tc .vmem S8192x128 .f32) (harg4 : arg4.IsWhole) (arg5 : Memref sig .tc .vmem S512x3 .f32) (harg5 : arg5.IsWhole) (arg6 : Memref sig .tc .vmem S512x128 .f32) (harg6 : arg6.IsWhole)
    (x0 : Vec F S512x3 .f32) (x1 : Vec F S3x8192 .f32) (x2 : Vec F S1x8192 .f32) (x3 : Vec F S8192x128 .f32) (y : S512x3.Idx) :
    ∃ pc ∈ (kernelRun0_A c i arg1 harg1 arg2 harg2 arg3 harg3 arg4 harg4 arg5 harg5 arg6 harg6 x0 x1 x2 x3).1, y ∈ pc.1.set :=
  View.cover_of_tiledL (kernelRun0_A c i arg1 harg1 arg2 harg2 arg3 harg3 arg4 harg4 arg5 harg5 arg6 harg6 x0 x1 x2 x3).1 S512x3.size (by sl_kernel_rfl) y

/-- What the run leaves in the output block's staging buffer: its pieces read back over junk. -/
def out0_A_4 (c : Dev nD) (i : grid0.Coords) (arg1 : Memref sig .tc .vmem S512x3 .f32) (harg1 : arg1.IsWhole) (arg2 : Memref sig .tc .vmem S3x8192 .f32) (harg2 : arg2.IsWhole) (arg3 : Memref sig .tc .vmem S1x8192 .f32) (harg3 : arg3.IsWhole) (arg4 : Memref sig .tc .vmem S8192x128 .f32) (harg4 : arg4.IsWhole) (arg5 : Memref sig .tc .vmem S512x3 .f32) (harg5 : arg5.IsWhole) (arg6 : Memref sig .tc .vmem S512x128 .f32) (harg6 : arg6.IsWhole)
    (x0 : Vec F S512x3 .f32) (x1 : Vec F S3x8192 .f32) (x2 : Vec F S1x8192 .f32) (x3 : Vec F S8192x128 .f32) : Vec F S512x3 .f32 :=
  VO0_4.read (Elt F) (VO0_4.writes (Elt F) VO0_4.junk (kernelRun0_A c i arg1 harg1 arg2 harg2 arg3 harg3 arg4 harg4 arg5 harg5 arg6 harg6 x0 x1 x2 x3).1)

/-! ## What the output block holds after each point -/

/-- The output block after the body at point `t`: the run's contents at the point's memrefs and input blocks. -/
def outsAt0 (c : Dev nD) (t : Fin cfg0.N) : Vec F S512x3 .f32 :=
  out0_A_4 c (grid0.coords t) (ms0_0 t) (hs0_0 t) (ms0_1 t) (hs0_1 t) (ms0_2 t) (hs0_2 t) (ms0_3 t) (hs0_3 t) (ms0_4 t) (hs0_4 t) msS hsS
    (iblk m c 0 t) (iblk m c 1 t) (iblk m c 2 t) (iblk m c 3 t)

/-! ## The pipeline's proof data -/

/-- The proof data of the pipeline on core `c`: the arrays as the region finds them; after the body at point `t`
    each input's buffer at its block and the output's at `outsAt0`; the invariant the scoped rest (the scratch
    accumulator) and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks, the scratch accumulator comes out of the
    invariant at some contents and goes back at some contents, the run applies, and the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl]
  unfold Pipeline.ΦA
  rw [scopedRest0_eq]
  unfold outsAt0
  unfold out0_A_4
  iintro ⟨⟨⟨%fS, HS⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ msS hsS (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS]
  · iexists fS; rw [owns_whole]; iexact HS
  iintro ⟨H0, H1, H2, H3, ⟨%e4, H4⟩, ⟨%eS, HS⟩⟩
  isplitl [HS Hg]
  · isplitl [HS]
    · iexists eS; simp only [View.set_whole] at *; iexact HS
    · iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has every array of the pipeline at what the proof data computes and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end without a fault and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.FrameKitI.lean ====
/-
  The launch side of the program's one pipelined region, stated once for any float instance.

  The region is entered after seven host operations (a transpose of the positions, a reshape of the masses, two
  constants and their broadcasts, and the concatenation that builds the position table with its lane of ones);
  `V` is what each buffer holds at that moment, as the fold of those operations over the launch memory. None of
  them writes an argument array, so the two arguments are found as launched. A window's block at a grid point is
  read off its array through the block's rectangle, and an input window's staging buffer holds that block at every
  point. The frame claim follows from any run of the region that ends with every staged array at what the proof
  data computes and every other buffer as the region found it.
-/
import proofs.«135620_j89704686944627_2_alg».proof.Proof.Gen.KernelIdeal.Launch
import proofs.«135620_j89704686944627_2_alg».proof.Proof.Gen.KernelIdeal.Skeleton
import proofs.«135620_j89704686944627_2_alg».proof.Proof.Gen.KernelIdeal.Loops
import proofs.«135620_j89704686944627_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the host operations' fold over the launch memory. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes,
      StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the pipeline fetched it
    there or not (not fetched, the block index has not moved), for any proof data over the region-entry arrays whose
    body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, whether the pipeline fetched it
    there or not (not fetched, the block index has not moved), for any proof data over the region-entry arrays whose
    body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, whether the pipeline fetched it
    there or not (not fetched, the block index has not moved), for any proof data over the region-entry arrays whose
    body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, whether the pipeline fetched it
    there or not (not fetched, the block index has not moved), for any proof data over the region-entry arrays whose
    body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region -/

/-- For any proof data over the region-entry arrays, a run ending with every staged array at what the proof data
    computes and every other buffer as the region found it leaves both argument arrays as launched: the
    positions are window 0's array, an input, and the masses are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The staging memrefs at a point -/

/-- One staging buffer of the output window, through which its contents are stated. -/
abbrev VO0_4 : View sig .tc .vmem S512x3 .f32 := (Memref.whole cc0_stg4_0 : Memref sig .tc .vmem S512x3 .f32).view
/-- Each window's current staging memref at point `t`, as the pipeline passes it to the body, and its wholeness. -/
abbrev ms0_0 (t : Fin cfg0.N) : Memref sig .tc .vmem S512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x3 .f32 := win0_4.stage (cfg0.slots t 4)
abbrev hs0_4 (t : Fin cfg0.N) : (ms0_4 t).IsWhole := hstage0_4 ((cfg0.slots t 4).cast nbuf0_4)
/-- The scratch accumulator, a whole buffer of the core. -/
abbrev msS : Memref sig .tc .vmem S512x128 .f32 := Memref.whole cc0_scratch0
abbrev hsS : (msS).IsWhole := Memref.isWhole_whole _

end Cert.KernelIdeal.Hand

end
-- ==== Proof.RunI.lean ====
/-
  The kernel body run once, on any six whole staging memrefs: the position block, the transposed positions, the
  masses and the position table at given contents, the output block and the scratch accumulator at anything.
  The body zeroes the accumulator, adds one matrix product per chunk of 1024 particles in a counted loop of eight
  trips, and stores columns 0..2 minus the position block times column 3 into the output block. It runs to its
  end without a fault, returns the four inputs as it found them, and leaves the output block with the pieces its
  one store wrote (the witness below) and the accumulator at some contents.
-/
import proofs.«135620_j89704686944627_2_alg».proof.Proof.FrameKitI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's store leaves in the output block's staging memref, with the proof that the body runs
    to the continuation holding the inputs as they were, the output block with those pieces written, and the
    accumulator at some contents. -/
noncomputable def kernelRun0_A (c : Dev nD) (i : grid0.Coords) (arg1 : Memref sig .tc .vmem S512x3 .f32) (harg1 : arg1.IsWhole) (arg2 : Memref sig .tc .vmem S3x8192 .f32) (harg2 : arg2.IsWhole) (arg3 : Memref sig .tc .vmem S1x8192 .f32) (harg3 : arg3.IsWhole) (arg4 : Memref sig .tc .vmem S8192x128 .f32) (harg4 : arg4.IsWhole) (arg5 : Memref sig .tc .vmem S512x3 .f32) (harg5 : arg5.IsWhole) (arg6 : Memref sig .tc .vmem S512x128 .f32) (harg6 : arg6.IsWhole)
    (x0 : Vec F S512x3 .f32) (x1 : Vec F S3x8192 .f32) (x2 : Vec F S1x8192 .f32) (x3 : Vec F S8192x128 .f32) :
    { L4 : List (View.Piece (Elt F) S512x3 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} f)) -∗ K ⟨⟩))
          ⊢ wp frame (wpE (defs₀ (F := F)) Variants.none c none) E (cc0__pairwise_force_kernel i arg1 harg1 arg2 harg2 arg3 harg3 arg4 harg4 arg5 harg5 arg6 harg6) K } := by
  refine ⟨?_, fun E K => ?run⟩
  case run =>
    simp only [cc0__pairwise_force_kernel_eq_skeleton]; unfold cc0__pairwise_force_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact H5

end Cert.KernelIdeal.Hand

end
-- ==== Proof.FrameI.lean ====
/-
  The frame of the program's one pipelined region.

  At each of the sixteen grid points the body finds the four input windows at their blocks (the position block of
  the point; the transposed positions, the masses and the position table whole), runs, and leaves the output
  block holding what its one store wrote. That store covers the block, so what the buffer reads afterwards does not
  depend on what it held before. The scratch accumulator is rewritten whole at the start of every point, so it is
  part of the region's invariant at some contents, as the generator register is. With this proof data the body
  obligation holds at every point, the region runs to its end, and both argument arrays end as launched.
-/
import proofs.«135620_j89704686944627_2_alg».proof.Proof.RunI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's one store into the output block writes the whole block, so its pieces cover it. -/
theorem cover0_A_4 (c : Dev nD) (i : grid0.Coords) (arg1 : Memref sig .tc .vmem S512x3 .f32) (harg1 : arg1.IsWhole) (arg2 : Memref sig .tc .vmem S3x8192 .f32) (harg2 : arg2.IsWhole) (arg3 : Memref sig .tc .vmem S1x8192 .f32) (harg3 : arg3.IsWhole) (arg4 : Memref sig .tc .vmem S8192x128 .f32) (harg4 : arg4.IsWhole) (arg5 : Memref sig .tc .vmem S512x3 .f32) (harg5 : arg5.IsWhole) (arg6 : Memref sig .tc .vmem S512x128 .f32) (harg6 : arg6.IsWhole)
    (x0 : Vec F S512x3 .f32) (x1 : Vec F S3x8192 .f32) (x2 : Vec F S1x8192 .f32) (x3 : Vec F S8192x128 .f32) (y : S512x3.Idx) :
    ∃ pc ∈ (kernelRun0_A c i arg1 harg1 arg2 harg2 arg3 harg3 arg4 harg4 arg5 harg5 arg6 harg6 x0 x1 x2 x3).1, y ∈ pc.1.set :=
  View.cover_of_tiledL (kernelRun0_A c i arg1 harg1 arg2 harg2 arg3 harg3 arg4 harg4 arg5 harg5 arg6 harg6 x0 x1 x2 x3).1 S512x3.size (by sl_kernel_rfl) y

/-- What the run leaves in the output block's staging buffer: its pieces read back over junk. -/
def out0_A_4 (c : Dev nD) (i : grid0.Coords) (arg1 : Memref sig .tc .vmem S512x3 .f32) (harg1 : arg1.IsWhole) (arg2 : Memref sig .tc .vmem S3x8192 .f32) (harg2 : arg2.IsWhole) (arg3 : Memref sig .tc .vmem S1x8192 .f32) (harg3 : arg3.IsWhole) (arg4 : Memref sig .tc .vmem S8192x128 .f32) (harg4 : arg4.IsWhole) (arg5 : Memref sig .tc .vmem S512x3 .f32) (harg5 : arg5.IsWhole) (arg6 : Memref sig .tc .vmem S512x128 .f32) (harg6 : arg6.IsWhole)
    (x0 : Vec F S512x3 .f32) (x1 : Vec F S3x8192 .f32) (x2 : Vec F S1x8192 .f32) (x3 : Vec F S8192x128 .f32) : Vec F S512x3 .f32 :=
  VO0_4.read (Elt F) (VO0_4.writes (Elt F) VO0_4.junk (kernelRun0_A c i arg1 harg1 arg2 harg2 arg3 harg3 arg4 harg4 arg5 harg5 arg6 harg6 x0 x1 x2 x3).1)

/-! ## What the output block holds after each point -/

/-- The output block after the body at point `t`: the run's contents at the point's memrefs and input blocks. -/
def outsAt0 (c : Dev nD) (t : Fin cfg0.N) : Vec F S512x3 .f32 :=
  out0_A_4 c (grid0.coords t) (ms0_0 t) (hs0_0 t) (ms0_1 t) (hs0_1 t) (ms0_2 t) (hs0_2 t) (ms0_3 t) (hs0_3 t) (ms0_4 t) (hs0_4 t) msS hsS
    (iblk m c 0 t) (iblk m c 1 t) (iblk m c 2 t) (iblk m c 3 t)

/-! ## The pipeline's proof data -/

/-- The proof data of the pipeline on core `c`: the arrays as the region finds them; after the body at point `t`
    each input's buffer at its block and the output's at `outsAt0`; the invariant the scoped rest (the scratch
    accumulator) and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the inputs' memrefs hold their blocks, the scratch accumulator comes out of the
    invariant at some contents and goes back at some contents, the run applies, and the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl]
  unfold Pipeline.ΦA
  rw [scopedRest0_eq]
  unfold outsAt0
  unfold out0_A_4
  iintro ⟨⟨⟨%fS, HS⟩, Hg⟩, Ho, ⟨%d0, H0⟩, ⟨%d1, H1⟩, ⟨%d2, H2⟩, ⟨%d3, H3⟩, ⟨%d4, H4⟩⟩
  iapply ((kernelRun0_A c (grid0.coords t) _ _ _ _ _ _ _ _ _ _ msS hsS (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS]
  · iexists fS; rw [owns_whole]; iexact HS
  iintro ⟨H0, H1, H2, H3, ⟨%e4, H4⟩, ⟨%eS, HS⟩⟩
  isplitl [HS Hg]
  · isplitl [HS]
    · iexists eS; simp only [View.set_whole] at *; iexact HS
    · iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0_A_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final
    state has every array of the pipeline at what the proof data computes and every other unscoped buffer as the
    region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end without a fault and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.ValueGenI.lean ====
/-
  What the kernel body computes, read off the run of one grid point, for any float instance.

  One loop trip leaves one piece: a store of the whole accumulator whose value is the accumulator it found plus the
  matrix product of that trip's masked magnitudes with that trip's rows of the position table. So the accumulator
  after `n` trips is a recursion over the trips starting from the zero fill, and the output block is columns 0..2 of
  the accumulator after the last trip minus the position block times column 3.
-/
import proofs.«135620_j89704686944627_2_alg».proof.Proof.FrameI
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- A load of the whole accumulator buffer through the rectangle at zero offsets reads its contents. -/
theorem ld_whole_acc (X : S512x128.Idx → Elt F .f32) :
    (fun j => X ((Rect.unit (s := S512x128) ![0, 0] S512x128.size inb_S512x128_S512x128_0_0).idx j)) = X :=
  View.ld_unit_zero (S := S512x128) hz inb_S512x128_S512x128_0_0 X

section Trip

variable (𝒱 : Variants) (c : Dev nD) (bd : Option 𝒱.V) (i : grid0.Coords) (arg1 : Memref sig .tc .vmem S512x3 .f32) (harg1 : arg1.IsWhole) (arg2 : Memref sig .tc .vmem S3x8192 .f32) (harg2 : arg2.IsWhole) (arg3 : Memref sig .tc .vmem S1x8192 .f32) (harg3 : arg3.IsWhole) (arg4 : Memref sig .tc .vmem S8192x128 .f32) (harg4 : arg4.IsWhole) (arg5 : Memref sig .tc .vmem S512x3 .f32) (harg5 : arg5.IsWhole) (arg6 : Memref sig .tc .vmem S512x128 .f32) (harg6 : arg6.IsWhole) (arg0 : BitVec 32) (v0 : Vec F S512x3 .f32) (X_arg2 : BufTy.Contents (Elt F) arg2.view.ty) (X_arg3 : BufTy.Contents (Elt F) arg3.view.ty) (X_arg4 : BufTy.Contents (Elt F) arg4.view.ty)

/-- Trip `k`'s piece: one store of the whole accumulator, at the accumulator found plus the product of the trip's
    masked magnitudes with the trip's rows of the table. -/
theorem tripL_eq (k : Fin k0_t1_loop.trips) (f : BufTy.Contents (Elt F) arg6.view.ty) :
    tripL_k0_t1 (F := F) 𝒱 c bd i arg1 harg1 arg2 harg2 arg3 harg3 arg4 harg4 arg5 harg5 arg6 harg6 arg0 v0 X_arg2 X_arg3 X_arg4 k f
      = [⟨Rect.unit (s := S512x128) ![0, 0] S512x128.size inb_S512x128_S512x128_0_0,
          k0_pay2 (k0_pay4 (View.readAt (Elt F) arg4.view (Rect.unit (s := S8192x128) (k0_off3 k) S1024x128.size (k0_off3_inb k)).toLoadRect X_arg4))
            (k0_pay5 v0 (View.readAt (Elt F) arg2.view (Rect.unit (s := S3x8192) (k0_off1 k) S3x1024.size (k0_off1_inb k)).toLoadRect X_arg2)
              (View.readAt (Elt F) arg3.view (Rect.unit (s := S1x8192) (k0_off2 k) S1x1024.size (k0_off2_inb k)).toLoadRect X_arg3))
            (k0_pay6 arg0 0#32 1#32 k)
            (View.readAt (Elt F) arg6.view (Rect.unit (s := S512x128) ![0, 0] S512x128.size inb_S512x128_S512x128_0_0).toLoadRect f)⟩] := by
  unfold tripL_k0_t1 trip_k0_t1
  dsimp only
  sl_unfold_run_names
  rfl

/-- The zero fill's piece. -/
abbrev zeroPiece : View.Piece (Elt F) S512x128 .f32 := ⟨Rect.unit (s := S512x128) ![0, 0] S512x128.size inb_S512x128_S512x128_0_0, k0_pay1⟩

/-- The pieces of the trips before `n`, over the zero-filled accumulator. -/
abbrev tripsBefore (n : ℕ) : List (View.Piece (Elt F) S512x128 .f32) :=
  pb_k0_t1 (F := F) 𝒱 c bd i arg1 harg1 arg2 harg2 arg3 harg3 arg4 harg4 arg5 harg5 arg6 harg6 arg0 v0 X_arg2 X_arg3 X_arg4 (arg6.view.writes (Elt F) arg6.view.junk [zeroPiece (F := F)]) n

/-- The accumulator after `n` trips: what a load of the whole buffer reads after the zero fill and the pieces of
    the trips before `n`. -/
def accAfter (n : ℕ) : Vec F S512x128 .f32 :=
  View.readAt (Elt F) arg6.view (Rect.unit (s := S512x128) ![0, 0] S512x128.size inb_S512x128_S512x128_0_0).toLoadRect
    (arg6.view.writes (Elt F) arg6.view.junk (tripsBefore (F := F) 𝒱 c bd i arg1 harg1 arg2 harg2 arg3 harg3 arg4 harg4 arg5 harg5 arg6 harg6 arg0 v0 X_arg2 X_arg3 X_arg4 n ++ [zeroPiece (F := F)]))

/-- Before any trip the accumulator reads the zero fill. -/
theorem accAfter_zero : accAfter (F := F) 𝒱 c bd i arg1 harg1 arg2 harg2 arg3 harg3 arg4 harg4 arg5 harg5 arg6 harg6 arg0 v0 X_arg2 X_arg3 X_arg4 0 = k0_pay1 := by
  unfold accAfter tripsBefore
  rw [show pb_k0_t1 (F := F) 𝒱 c bd i arg1 harg1 arg2 harg2 arg3 harg3 arg4 harg4 arg5 harg5 arg6 harg6 arg0 v0 X_arg2 X_arg3 X_arg4 (arg6.view.writes (Elt F) arg6.view.junk [zeroPiece (F := F)]) 0 = [] from rfl, List.nil_append,
    View.readAt_writes_junk_eq_canon, View.canon_unit_zero hz]
  exact ld_whole_acc _

/-- One more trip: the accumulator is the trip's value over the accumulator before it. -/
theorem accAfter_succ (k : Fin k0_t1_loop.trips) :
    accAfter (F := F) 𝒱 c bd i arg1 harg1 arg2 harg2 arg3 harg3 arg4 harg4 arg5 harg5 arg6 harg6 arg0 v0 X_arg2 X_arg3 X_arg4 (k.val + 1)
      = k0_pay2 (k0_pay4 (View.readAt (Elt F) arg4.view (Rect.unit (s := S8192x128) (k0_off3 k) S1024x128.size (k0_off3_inb k)).toLoadRect X_arg4))
          (k0_pay5 v0 (View.readAt (Elt F) arg2.view (Rect.unit (s := S3x8192) (k0_off1 k) S3x1024.size (k0_off1_inb k)).toLoadRect X_arg2)
            (View.readAt (Elt F) arg3.view (Rect.unit (s := S1x8192) (k0_off2 k) S1x1024.size (k0_off2_inb k)).toLoadRect X_arg3))
          (k0_pay6 arg0 0#32 1#32 k)
          (accAfter (F := F) 𝒱 c bd i arg1 harg1 arg2 harg2 arg3 harg3 arg4 harg4 arg5 harg5 arg6 harg6 arg0 v0 X_arg2 X_arg3 X_arg4 k.val) := by
  unfold accAfter tripsBefore
  rw [pb_k0_t1_succ, tripL_eq, List.singleton_append, List.cons_append, View.readAt_writes_junk_eq_canon,
    View.canon_cons_unit_zero hz, ← View.writes_append]
  exact ld_whole_acc _

end Trip

/-- The output block the run leaves: columns 0..2 of the accumulator after the last trip minus the position block
    times column 3. -/
theorem out_eq (c : Dev nD) (i : grid0.Coords) (arg1 : Memref sig .tc .vmem S512x3 .f32) (harg1 : arg1.IsWhole) (arg2 : Memref sig .tc .vmem S3x8192 .f32) (harg2 : arg2.IsWhole) (arg3 : Memref sig .tc .vmem S1x8192 .f32) (harg3 : arg3.IsWhole) (arg4 : Memref sig .tc .vmem S8192x128 .f32) (harg4 : arg4.IsWhole) (arg5 : Memref sig .tc .vmem S512x3 .f32) (harg5 : arg5.IsWhole) (arg6 : Memref sig .tc .vmem S512x128 .f32) (harg6 : arg6.IsWhole)
    (x0 : Vec F S512x3 .f32) (x1 : Vec F S3x8192 .f32) (x2 : Vec F S1x8192 .f32) (x3 : Vec F S8192x128 .f32) :
    out0_A_4 c i arg1 harg1 arg2 harg2 arg3 harg3 arg4 harg4 arg5 harg5 arg6 harg6 x0 x1 x2 x3
      = k0_pay3 x0 (accAfter (F := F) Variants.none c none i arg1 harg1 arg2 harg2 arg3 harg3 arg4 harg4 arg5 harg5 arg6 harg6 (BitVec.ofNat 32 (i 0).val) x0
          (harg2.unread x1) (harg3.unread x2) (harg4.unread x3) k0_t1_loop.trips) := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_run_names
  rw [View.canon_unit_zero hz]
  have hv0 : View.readAt (Elt F) arg1.view (Rect.unit (s := S512x3) ![0, 0] S512x3.size inb_S512x3_S512x3_0_0).toLoadRect (harg1.unread x0) = x0 := by
    rw [View.readAt_eq_ld, harg1.read_unread]; exact View.ld_unit_zero (S := S512x3) hz _ _
  rw [hv0]
  rfl

end Cert.KernelIdeal.Hand

end
-- ==== Proof.Spec.lean ====
/-
  The two force formulas, as functions of a position table `P : Fin 8192 → Fin 3 → EReal` and a mass vector
  `M : Fin 8192 → EReal`, written index by index over the extended reals.

  The reference sums, over every particle `j`, the softened inverse-cube magnitude
  `m_j · (|p_j − p_i|² + ε)^(−3/2)` times the displacement `p_j − p_i`.

  The kernel drops the term `j = i` (whose displacement is zero), computes the magnitude as the cube of the
  reciprocal square root, and splits the sum:  `Σ_j f_ij · p_j  −  p_i · Σ_j f_ij`.

  The four literals are kept as the words the programs spell: ε (the same word on both sides), 1, 0 and the
  exponent −3/2.
-/
import Idealize.ShloMosaic.PureOps.Ideal
import Idealize.ShloMosaic.Lib.ValueIdx

noncomputable section

namespace Cert.Force

open Idealize.ShloMosaic
open scoped BigOperators

/-- The softening term ε², as both programs spell it. -/
abbrev eps : EReal := Ideal.ofBits .f32 0x38D1B717#32
/-- The word of 1. -/
abbrev one : EReal := Ideal.ofBits .f32 0x3F800000#32
/-- The word of 0. -/
abbrev zero : EReal := Ideal.ofBits .f32 0x00000000#32
/-- The word of −3/2, the reference's exponent. -/
abbrev expo : EReal := Ideal.ofBits .f32 0xBFC00000#32

/-! ## The kernel's arithmetic on scalars -/

/-- The kernel's softened squared distance between the points `(a0, a1, a2)` and `(b0, b1, b2)`,
    accumulated coordinate by coordinate onto ε. -/
def dsqOf (a0 a1 a2 b0 b1 b2 : EReal) : EReal :=
  ((eps + (a0 - b0) * (a0 - b0)) + (a1 - b1) * (a1 - b1)) + (a2 - b2) * (a2 - b2)

/-- The kernel's force magnitude: the mass (times the unit constant) times the cube of the reciprocal
    square root of the softened squared distance. -/
def magOf (a0 a1 a2 b0 b1 b2 mj : EReal) : EReal :=
  (one * mj) *
    ((Ideal.rsqrt (dsqOf a0 a1 a2 b0 b1 b2) * Ideal.rsqrt (dsqOf a0 a1 a2 b0 b1 b2))
      * Ideal.rsqrt (dsqOf a0 a1 a2 b0 b1 b2))

variable (P : Fin 8192 → Fin 3 → EReal) (M : Fin 8192 → EReal)

/-! ## The reference -/

/-- The reference's softened squared distance: the sum over the three coordinates (from the initial value 0)
    of the squared displacement, plus ε. -/
def refDsq (i j : Fin 8192) : EReal :=
  (zero + ∑ k : Fin 3, (P j k - P i k) * (P j k - P i k)) + eps

/-- The reference's magnitude `(1 · m_j) · d^(−3/2)`. -/
def refMag (i j : Fin 8192) : EReal :=
  (one * M j) * Ideal.pow (refDsq P i j) expo

/-- The reference's force on particle `i`, coordinate `d`. -/
def refForce (i : Fin 8192) (d : Fin 3) : EReal :=
  zero + ∑ j : Fin 8192, refMag P M i j * (P j d - P i d)

/-! ## The kernel -/

/-- The kernel's magnitude between particles `i` and `j`. -/
def kerMag (i j : Fin 8192) : EReal :=
  magOf (P i 0) (P i 1) (P i 2) (P j 0) (P j 1) (P j 2) (M j)

/-- The magnitude with the self term zeroed. -/
def kerMask (i j : Fin 8192) : EReal :=
  if i = j then zero else kerMag P M i j

/-- The position-weighted sum of the masked magnitudes. -/
def kerS2 (i : Fin 8192) (d : Fin 3) : EReal := ∑ j : Fin 8192, kerMask P M i j * P j d

/-- The plain sum of the masked magnitudes (against the table's lane of ones). -/
def kerS1 (i : Fin 8192) : EReal := ∑ j : Fin 8192, kerMask P M i j * one

/-- The kernel's force on particle `i`, coordinate `d`. -/
def kerForce (i : Fin 8192) (d : Fin 3) : EReal := kerS2 P M i d - P i d * kerS1 P M i

end Cert.Force

end
-- ==== Proof.PayRead.lean ====
/-
  The kernel body's pure values, read at one index at the ideal instance: each of the six values the body
  stores or carries, as a formula over the extended reals (or over words, for the diagonal mask).
-/
import proofs.«135620_j89704686944627_2_alg».proof.Proof.Spec
import proofs.«135620_j89704686944627_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Force.Pay

open Idealize.ShloMosaic Idealize.ShloMosaic.ValueIdx Cert.KernelIdeal Cert.KernelIdeal.Gen
open scoped BigOperators

/-! ## Layout steps read at an index -/

/-- A column `[a, 1]` broadcast across `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `c` of a matrix, cut out as an `[a, 1]` block and broadcast across `[a, b]`, reads at `(p, q)` the
    matrix at `(p, c)`. -/
theorem colBroadcast_apply {α : Type} {a n b : ℕ} (o : ℕ) (X : (⟨2, ![a, n]⟩ : Shape).Idx → α)
    (hs : (⟨2, ![a, n]⟩ : Shape).Slices ![0, o] ⟨2, ![a, 1]⟩)
    (hb : (⟨2, ![a, 1]⟩ : Shape).Broadcasts ⟨2, ![a, b]⟩) (p : Fin a) (q : Fin b) (c : Fin n) (hc : c.val = o) :
    broadcastTo ⟨2, ![a, b]⟩ (extractStridedSlice ⟨2, ![a, 1]⟩ ![0, o] X hs) hb (ix2 p q) = X (ix2 p c) :=
  (broadcastTo_a1_ab_apply _ hb p q).trans (slice2_axis1_apply o X hs p (0 : Fin 1) c (by rw [hc]; rfl))

/-- Row `c` of a matrix, cut out as a `[1, b]` block and broadcast across `[a, b]`, reads at `(p, q)` the
    matrix at `(c, q)`. -/
theorem rowBroadcast_apply {α : Type} {n a b : ℕ} (o : ℕ) (X : (⟨2, ![n, b]⟩ : Shape).Idx → α)
    (hs : (⟨2, ![n, b]⟩ : Shape).Slices ![o, 0] ⟨2, ![1, b]⟩)
    (hb : (⟨2, ![1, b]⟩ : Shape).Broadcasts ⟨2, ![a, b]⟩) (p : Fin a) (q : Fin b) (c : Fin n) (hc : c.val = o) :
    broadcastTo ⟨2, ![a, b]⟩ (extractStridedSlice ⟨2, ![1, b]⟩ ![o, 0] X hs) hb (ix2 p q) = X (ix2 c q) :=
  (broadcastTo_1b_ab_apply _ hb p q).trans (slice2_axis0_apply o X hs (0 : Fin 1) q c (by rw [hc]; rfl))

/-! ## The six values -/

/-- The zero block: a broadcast zero, cast to its own shape. -/
theorem pay1_apply (r : Fin 512) (l : Fin 128) : k0_pay1 (F := Ideal) (ix2 r l) = Cert.Force.zero := by
  unfold k0_pay1
  rw [shapeCast_self]
  rfl

/-- The table chunk: a cast to its own shape. -/
theorem pay4_apply (v24 : Vec Ideal S1024x128 .f32) (j : Fin 1024) (l : Fin 128) : k0_pay4 v24 (ix2 j l) = v24 (ix2 j l) := by
  unfold k0_pay4
  rw [shapeCast_self]

/-- A reciprocal square root at an index is the extended reals' one on the element. -/
theorem rsqrt_apply {s : Shape} {φ : FTy} (a : FVec Ideal s φ) (i : s.Idx) : rsqrt a i = Ideal.rsqrt (a i) := rfl

/-- The magnitude block at `(r, j)`: coordinate `c` of row `r` of the position block against row `c`, column `j` of the
    transposed chunk, three squared differences added onto ε, the reciprocal square root cubed, times the unit
    constant times the mass. -/
theorem pay5_apply (v0 : Vec Ideal S512x3 .f32) (v18 : Vec Ideal S3x1024 .f32) (v21 : Vec Ideal S1x1024 .f32) (r : Fin 512) (j : Fin 1024) :
    k0_pay5 v0 v18 v21 (ix2 r j)
      = Cert.Force.magOf (v0 (ix2 r 0)) (v0 (ix2 r 1)) (v0 (ix2 r 2)) (v18 (ix2 0 j)) (v18 (ix2 1 j)) (v18 (ix2 2 j)) (v21 (ix2 0 j)) := by
  have a0 := colBroadcast_apply 0 v0 slices_S512x3_o0_0_S512x1 broadcasts_S512x1_S512x1024 r j (0 : Fin 3) rfl
  have a1 := colBroadcast_apply 1 v0 slices_S512x3_o0_1_S512x1 broadcasts_S512x1_S512x1024 r j (1 : Fin 3) rfl
  have a2 := colBroadcast_apply 2 v0 slices_S512x3_o0_2_S512x1 broadcasts_S512x1_S512x1024 r j (2 : Fin 3) rfl
  have b0 := rowBroadcast_apply 0 v18 slices_S3x1024_o0_0_S1x1024 broadcasts_S1x1024_S512x1024 r j (0 : Fin 3) rfl
  have b1 := rowBroadcast_apply 1 v18 slices_S3x1024_o1_0_S1x1024 broadcasts_S1x1024_S512x1024 r j (1 : Fin 3) rfl
  have b2 := rowBroadcast_apply 2 v18 slices_S3x1024_o2_0_S1x1024 broadcasts_S1x1024_S512x1024 r j (2 : Fin 3) rfl
  unfold k0_pay5
  simp only [shapeCast_self, mulf_apply, addf_apply, subf_apply, rsqrt_apply, a0, a1, a2, b0, b1, b2,
    broadcastTo_1b_ab_apply, broadcast_apply]
  rfl

/-! ## The diagonal mask -/

/-- Equality of two 32-bit words written from naturals below `2^32` is equality of the naturals. -/
theorem cmpi_eq_ofNat (a b : Nat) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · have hne : BitVec.ofNat 32 a ≠ BitVec.ofNat 32 b := fun e => h (by
      have := congrArg BitVec.toNat e
      simp only [BitVec.toNat_ofNat] at this
      rw [Nat.mod_eq_of_lt ha, Nat.mod_eq_of_lt hb] at this
      exact this)
    rw [if_neg h, beq_eq_false_iff_ne.mpr hne]
    rfl

/-- The mask at `(r, j)`, at grid point `t` and chunk `k`: set exactly where the block's global row `512 t + r` is the
    chunk's global column `1024 k + j`. -/
theorem pay6_apply (t : Fin 16) (k : Fin k0_t1_loop.trips) (r : Fin 512) (j : Fin 1024) :
    k0_pay6 (BitVec.ofNat 32 t.val) 0#32 1#32 k (ix2 r j)
      = if t.val * 512 + r.val = k.val * 1024 + j.val then 1#1 else 0#1 := by
  have hk : k.val < 8 := Nat.lt_of_lt_of_le k.isLt k0_t1_abs.2.1
  have ht := t.isLt
  have hr := r.isLt
  have hj := j.isLt
  have hrow : IntOp.addi (Scalar.muli (BitVec.ofNat 32 t.val) 512#32) (BitVec.ofNat 32 r.val)
      = BitVec.ofNat 32 (t.val * 512 + r.val) := by
    apply BitVec.eq_of_toNat_eq
    simp only [IntOp.addi, Scalar.muli, IntOp.muli, BitVec.toNat_add, BitVec.toNat_mul, BitVec.toNat_ofNat]
    omega
  have hcol : IntOp.addi (Scalar.muli (Scalar.addi 0#32 (Scalar.muli (Scf.iv 0#32 1#32 k.val) 1#32)) 1024#32)
        (BitVec.ofNat 32 j.val)
      = BitVec.ofNat 32 (k.val * 1024 + j.val) := by
    apply BitVec.eq_of_toNat_eq
    simp only [IntOp.addi, Scalar.muli, Scalar.addi, IntOp.muli, Scf.iv, BitVec.toNat_add, BitVec.toNat_mul,
      BitVec.toNat_ofNat]
    omega
  unfold k0_pay6
  show IntOp.cmpi .eq
      (IntOp.addi (Scalar.muli (BitVec.ofNat 32 t.val) 512#32) (iota .tc S512x1024 32 [0] iota_S512x1024_d0_w32 (ix2 r j)))
      (IntOp.addi (Scalar.muli (Scalar.addi 0#32 (Scalar.muli (Scf.iv 0#32 1#32 k.val) 1#32)) 1024#32)
        (iota .tc S512x1024 32 [1] iota_S512x1024_d1_w32 (ix2 r j))) = _
  rw [iota_single_apply, iota_single_apply]
  show IntOp.cmpi .eq
      (IntOp.addi (Scalar.muli (BitVec.ofNat 32 t.val) 512#32) (BitVec.ofNat 32 r.val))
      (IntOp.addi (Scalar.muli (Scalar.addi 0#32 (Scalar.muli (Scf.iv 0#32 1#32 k.val) 1#32)) 1024#32)
        (BitVec.ofNat 32 j.val)) = _
  rw [hrow, hcol]
  exact cmpi_eq_ofNat _ _ (by omega) (by omega)

/-! ## The matrix product's operand indices -/

/-- On its free axis the product's left index reads the output's row … -/
theorem lhs_dot_0 (i : S512x128.Idx) (q : dot_S512x1024_S1024x128_S512x128_1_0_0_1_n_n.contr.Idx) :
    (dot_S512x1024_S1024x128_S512x128_1_0_0_1_n_n.lhsIdx i q 0).val = (i 0).val := by
  unfold DotDims.lhsIdx
  rw [dif_neg (show ¬(0 : Fin S512x1024.rank) ∈ dot_S512x1024_S1024x128_S512x128_1_0_0_1_n_n.lhsBatch by decide),
    dif_pos (show (0 : Fin S512x1024.rank) ∈ dot_S512x1024_S1024x128_S512x128_1_0_0_1_n_n.lhsNonContracting by decide)]
  rfl
/-- … and on its contracted axis the contraction position. -/
theorem lhs_dot_1 (i : S512x128.Idx) (q : dot_S512x1024_S1024x128_S512x128_1_0_0_1_n_n.contr.Idx) :
    (dot_S512x1024_S1024x128_S512x128_1_0_0_1_n_n.lhsIdx i q 1).val = (q ⟨0, by decide⟩).val :=
  dot_S512x1024_S1024x128_S512x128_1_0_0_1_n_n.lhsIdx_val_of_single rfl i q
/-- On its contracted axis the product's right index reads the contraction position … -/
theorem rhs_dot_0 (i : S512x128.Idx) (q : dot_S512x1024_S1024x128_S512x128_1_0_0_1_n_n.contr.Idx) :
    (dot_S512x1024_S1024x128_S512x128_1_0_0_1_n_n.rhsIdx i q 0).val = (q ⟨0, by decide⟩).val :=
  dot_S512x1024_S1024x128_S512x128_1_0_0_1_n_n.rhsIdx_val_of_single rfl i q
/-- … and on its free axis the output's column. -/
theorem rhs_dot_1 (i : S512x128.Idx) (q : dot_S512x1024_S1024x128_S512x128_1_0_0_1_n_n.contr.Idx) :
    (dot_S512x1024_S1024x128_S512x128_1_0_0_1_n_n.rhsIdx i q 1).val = (i 1).val := by
  unfold DotDims.rhsIdx
  rw [dif_neg (show ¬(1 : Fin S1024x128.rank) ∈ dot_S512x1024_S1024x128_S512x128_1_0_0_1_n_n.rhsBatch by decide),
    dif_pos (show (1 : Fin S1024x128.rank) ∈ dot_S512x1024_S1024x128_S512x128_1_0_0_1_n_n.rhsNonContracting by decide)]
  rfl

/-- The accumulator block after one chunk: the accumulator read before it plus, over the chunk's 1024 particles, the
    magnitude (zeroed where the mask bit is set) times the table chunk's entry. -/
theorem pay2_apply (v25 : FVec Ideal S1024x128 .f32) (v54 : FVec Ideal S512x1024 .f32) (v62 : IVec S512x1024 1) (v66 : Vec Ideal S512x128 .f32) (r : Fin 512) (l : Fin 128) :
    k0_pay2 v25 v54 v62 v66 (ix2 r l)
      = v66 (ix2 r l) + ∑ j : Fin 1024, (if v62 (ix2 r j) = 1#1 then Cert.Force.zero else v54 (ix2 r j)) * v25 (ix2 j l) := by
  unfold k0_pay2
  rw [shapeCast_self, addf_apply]
  refine congrArg (v66 (ix2 r l) + ·) ?_
  refine (Ideal.matmul_constant_zero_apply dot_S512x1024_S1024x128_S512x128_1_0_0_1_n_n _ _ _ _).trans ?_
  rw [← Equiv.sum_comp (contrEquiv1 dot_S512x1024_S1024x128_S512x128_1_0_0_1_n_n 1024 rfl rfl).symm]
  refine Finset.sum_congr rfl fun k _ => ?_
  have hk := contrEquiv1_symm_val dot_S512x1024_S1024x128_S512x128_1_0_0_1_n_n 1024 rfl rfl k
  have el : dot_S512x1024_S1024x128_S512x128_1_0_0_1_n_n.lhsIdx (ix2 r l)
      ((contrEquiv1 dot_S512x1024_S1024x128_S512x128_1_0_0_1_n_n 1024 rfl rfl).symm k) = ix2 r k :=
    funext fun a => Fin.ext (by
      match a with
      | ⟨0, _⟩ => exact lhs_dot_0 _ _
      | ⟨1, _⟩ => exact (lhs_dot_1 _ _).trans hk)
  have er : dot_S512x1024_S1024x128_S512x128_1_0_0_1_n_n.rhsIdx (ix2 r l)
      ((contrEquiv1 dot_S512x1024_S1024x128_S512x128_1_0_0_1_n_n 1024 rfl rfl).symm k) = ix2 k l :=
    funext fun a => Fin.ext (by
      match a with
      | ⟨0, _⟩ => exact (rhs_dot_0 _ _).trans hk
      | ⟨1, _⟩ => exact rhs_dot_1 _ _)
  rw [el, er]
  rfl

/-- The force block: lanes 0..2 of the accumulator minus the position block times lane 3 of the accumulator. -/
theorem pay3_apply (v0 : Vec Ideal S512x3 .f32) (v6 : Vec Ideal S512x128 .f32) (r : Fin 512) (d : Fin 3) :
    k0_pay3 v0 v6 (ix2 r d)
      = v6 (ix2 r ⟨d.val, by omega⟩) - v0 (ix2 r d) * v6 (ix2 r ⟨3, by omega⟩) := by
  unfold k0_pay3
  rw [subf_apply, mulf_apply,
    colBroadcast_apply 3 v6 slices_S512x128_o0_3_S512x1 broadcasts_S512x1_S512x3 r d ⟨3, by omega⟩ rfl,
    slice2_axis1_apply 0 v6 slices_S512x128_o0_0_S512x3 r d ⟨d.val, by omega⟩ (Nat.zero_add _).symm]

end Cert.Force.Pay

end
-- ==== Proof.ChunkSum.lean ====
/-
  Eight chunk sums are one sum: an accumulator that starts from the word of zero and receives, trip by trip, the sum
  over one chunk of 1024 consecutive particles holds after eight trips the sum over all 8192. Addition on the extended
  reals is commutative and associative, so this is regrouping only and asks nothing of the summands.
-/
import proofs.«135620_j89704686944627_2_alg».proof.Proof.Spec
import Idealize.ShloMosaic.PureOps.Ideal.Laws
import Mathlib.Algebra.BigOperators.Fin
import Mathlib.Algebra.BigOperators.Intervals

noncomputable section

namespace Cert.Force

open Idealize.ShloMosaic
open scoped BigOperators

/-- The accumulator after `n` trips: from the word of zero, one chunk sum added per trip. -/
def accR (f : ℕ → EReal) : ℕ → EReal
  | 0 => zero
  | k + 1 => accR f k + ∑ j : Fin 1024, f (k * 1024 + j.val)

/-- After `n` trips the accumulator is the sum over the first `1024 n` particles. -/
theorem accR_range (f : ℕ → EReal) (n : ℕ) : accR f n = ∑ i ∈ Finset.range (n * 1024), f i := by
  induction n with
  | zero =>
    show zero = _
    rw [Nat.zero_mul, Finset.range_zero, Finset.sum_empty]
    exact Ideal.ofBits_zero_f32
  | succ k ih =>
    show accR f k + ∑ j : Fin 1024, f (k * 1024 + j.val) = _
    rw [ih, Nat.succ_mul, Finset.sum_range_add, Fin.sum_univ_eq_sum_range (fun i => f (k * 1024 + i)) 1024]

/-- After the eight trips it is the sum over all 8192 particles. -/
theorem accR_eight (f : ℕ → EReal) : accR f 8 = ∑ j : Fin 8192, f j.val := by
  rw [accR_range f 8, show 8 * 1024 = 8192 from rfl, Fin.sum_univ_eq_sum_range (fun i => f i) 8192]

end Cert.Force

end
-- ==== Proof.ValueIdealI.lean ====
/-
  The kernel body's values at the ideal instance, index by index.

  A trip's three loads read its chunk of 1024 particles: columns 1024·k … 1024·k+1023 of the transposed positions
  and of the masses, rows 1024·k … of the position table. With the body's arithmetic read at an index, the
  accumulator's entry (r, l) after n trips is, from the word of zero, one chunk sum per trip of
  (the magnitude between row r of the position block and particle j, zeroed where j is the row's own particle)
  times the table's entry (j, l); and the output block's entry (r, d) is the accumulator's entry (r, d) minus the
  position block's entry (r, d) times the accumulator's entry (r, 3).
-/
import proofs.«135620_j89704686944627_2_alg».proof.Proof.ValueGenI
import proofs.«135620_j89704686944627_2_alg».proof.Proof.PayRead
import proofs.«135620_j89704686944627_2_alg».proof.Proof.ChunkSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- The loop has at most eight trips. -/
theorem trip_lt (k : Fin k0_t1_loop.trips) : k.val < 8 := Nat.lt_of_lt_of_le k.isLt k0_t1_abs.2.1

/-! ## A trip's loads -/

section Loads

/-- The trip's load of the transposed positions reads columns 1024·k + j. -/
theorem load1_apply (a : Memref sig .tc .vmem S3x8192 .f32) (ha : a.IsWhole) (X : Vec Ideal S3x8192 .f32)
    (k : Fin k0_t1_loop.trips) (p : Fin 3) (j : Fin 1024) (jj : Fin 8192) (hjj : jj.val = k.val * 1024 + j.val) :
    View.readAt (Elt Ideal) a.view (Rect.unit (s := S3x8192) (k0_off1 k) S3x1024.size (k0_off1_inb k)).toLoadRect (ha.unread X) (ix2 p j)
      = X (ix2 p jj) := by
  rw [View.readAt_eq_ld, ha.read_unread]
  show X ((Rect.unit (s := S3x8192) (k0_off1 k) S3x1024.size (k0_off1_inb k)).idx (ix2 p j)) = X (ix2 p jj)
  refine congrArg X (funext fun ax => Fin.ext ?_)
  match ax with
  | ⟨0, _⟩ => show (k0_off1 k) 0 + 1 * p.val = p.val; rw [k0_off1_eq k]; show 0 + 1 * p.val = p.val; omega
  | ⟨1, _⟩ => show (k0_off1 k) 1 + 1 * j.val = jj.val; rw [k0_off1_eq k]; show 1024 * k.val + 1 * j.val = jj.val; omega

/-- The trip's load of the masses reads columns 1024·k + j. -/
theorem load2_apply (a : Memref sig .tc .vmem S1x8192 .f32) (ha : a.IsWhole) (X : Vec Ideal S1x8192 .f32)
    (k : Fin k0_t1_loop.trips) (j : Fin 1024) (jj : Fin 8192) (hjj : jj.val = k.val * 1024 + j.val) :
    View.readAt (Elt Ideal) a.view (Rect.unit (s := S1x8192) (k0_off2 k) S1x1024.size (k0_off2_inb k)).toLoadRect (ha.unread X) (ix2 0 j)
      = X (ix2 0 jj) := by
  rw [View.readAt_eq_ld, ha.read_unread]
  show X ((Rect.unit (s := S1x8192) (k0_off2 k) S1x1024.size (k0_off2_inb k)).idx (ix2 0 j)) = X (ix2 0 jj)
  refine congrArg X (funext fun ax => Fin.ext ?_)
  match ax with
  | ⟨0, _⟩ => show (k0_off2 k) 0 + 1 * 0 = 0; rw [k0_off2_eq k]; rfl
  | ⟨1, _⟩ => show (k0_off2 k) 1 + 1 * j.val = jj.val; rw [k0_off2_eq k]; show 1024 * k.val + 1 * j.val = jj.val; omega

/-- The trip's load of the position table reads rows 1024·k + j. -/
theorem load3_apply (a : Memref sig .tc .vmem S8192x128 .f32) (ha : a.IsWhole) (X : Vec Ideal S8192x128 .f32)
    (k : Fin k0_t1_loop.trips) (j : Fin 1024) (l : Fin 128) (jj : Fin 8192) (hjj : jj.val = k.val * 1024 + j.val) :
    View.readAt (Elt Ideal) a.view (Rect.unit (s := S8192x128) (k0_off3 k) S1024x128.size (k0_off3_inb k)).toLoadRect (ha.unread X) (ix2 j l)
      = X (ix2 jj l) := by
  rw [View.readAt_eq_ld, ha.read_unread]
  show X ((Rect.unit (s := S8192x128) (k0_off3 k) S1024x128.size (k0_off3_inb k)).idx (ix2 j l)) = X (ix2 jj l)
  refine congrArg X (funext fun ax => Fin.ext ?_)
  match ax with
  | ⟨0, _⟩ => show (k0_off3 k) 0 + 1 * j.val = jj.val; rw [k0_off3_eq k]; show 1024 * k.val + 1 * j.val = jj.val; omega
  | ⟨1, _⟩ => show (k0_off3 k) 1 + 1 * l.val = l.val; rw [k0_off3_eq k]; show 0 + 1 * l.val = l.val; omega

end Loads

/-! ## The accumulator -/

section Acc

variable (x0 : Vec Ideal S512x3 .f32) (x1 : Vec Ideal S3x8192 .f32) (x2 : Vec Ideal S1x8192 .f32) (x3 : Vec Ideal S8192x128 .f32)
variable (tt : Fin 16)

/-- Particle `jj`'s contribution to the accumulator's entry (r, l) at grid point `tt`: the magnitude between row r
    of the position block and particle jj — zero when jj is row r's own particle 512·tt + r — times the table's
    entry (jj, l). -/
def term (r : Fin 512) (l : Fin 128) (jj : ℕ) : EReal :=
  if h : jj < 8192 then
    (if tt.val * 512 + r.val = jj then Cert.Force.zero
      else Cert.Force.magOf (x0 (ix2 r 0)) (x0 (ix2 r 1)) (x0 (ix2 r 2))
        (x1 (ix2 0 ⟨jj, h⟩)) (x1 (ix2 1 ⟨jj, h⟩)) (x1 (ix2 2 ⟨jj, h⟩)) (x2 (ix2 0 ⟨jj, h⟩)))
      * x3 (ix2 ⟨jj, h⟩ l)
  else 0

variable (𝒱 : Variants) (c : Dev nD) (bd : Option 𝒱.V) (i : grid0.Coords) (arg1 : Memref sig .tc .vmem S512x3 .f32) (harg1 : arg1.IsWhole) (arg2 : Memref sig .tc .vmem S3x8192 .f32) (harg2 : arg2.IsWhole) (arg3 : Memref sig .tc .vmem S1x8192 .f32) (harg3 : arg3.IsWhole) (arg4 : Memref sig .tc .vmem S8192x128 .f32) (harg4 : arg4.IsWhole) (arg5 : Memref sig .tc .vmem S512x3 .f32) (harg5 : arg5.IsWhole) (arg6 : Memref sig .tc .vmem S512x128 .f32) (harg6 : arg6.IsWhole)

/-- The accumulator's entry (r, l) after n trips is the chunk-by-chunk sum of the particles' contributions. -/
theorem acc_apply (n : ℕ) (hn : n ≤ k0_t1_loop.trips) (r : Fin 512) (l : Fin 128) :
    accAfter (F := Ideal) 𝒱 c bd i arg1 harg1 arg2 harg2 arg3 harg3 arg4 harg4 arg5 harg5 arg6 harg6 (BitVec.ofNat 32 tt.val) x0 (harg2.unread x1) (harg3.unread x2) (harg4.unread x3) n (ix2 r l)
      = Cert.Force.accR (term x0 x1 x2 x3 tt r l) n := by
  induction n with
  | zero =>
    rw [accAfter_zero]
    exact Cert.Force.Pay.pay1_apply r l
  | succ n ih =>
    have hk : n < k0_t1_loop.trips := hn
    have hk8 : n < 8 := trip_lt ⟨n, hk⟩
    refine (congrFun (accAfter_succ (F := Ideal) 𝒱 c bd i arg1 harg1 arg2 harg2 arg3 harg3 arg4 harg4 arg5 harg5 arg6 harg6 (BitVec.ofNat 32 tt.val) x0 (harg2.unread x1) (harg3.unread x2) (harg4.unread x3) ⟨n, hk⟩) (ix2 r l)).trans ?_
    refine (Cert.Force.Pay.pay2_apply _ _ _ _ r l).trans ?_
    show _ = Cert.Force.accR (term x0 x1 x2 x3 tt r l) n + ∑ j : Fin 1024, term x0 x1 x2 x3 tt r l (n * 1024 + j.val)
    refine congrArg₂ (· + ·) (ih (Nat.le_of_lt hk)) (Finset.sum_congr rfl fun j _ => ?_)
    have hj : n * 1024 + j.val < 8192 := by have := j.isLt; omega
    rw [Cert.Force.Pay.pay6_apply tt ⟨n, hk⟩ r j, Cert.Force.Pay.pay5_apply, Cert.Force.Pay.pay4_apply,
      load1_apply arg2 harg2 x1 ⟨n, hk⟩ 0 j ⟨n * 1024 + j.val, hj⟩ rfl,
      load1_apply arg2 harg2 x1 ⟨n, hk⟩ 1 j ⟨n * 1024 + j.val, hj⟩ rfl,
      load1_apply arg2 harg2 x1 ⟨n, hk⟩ 2 j ⟨n * 1024 + j.val, hj⟩ rfl,
      load2_apply arg3 harg3 x2 ⟨n, hk⟩ j ⟨n * 1024 + j.val, hj⟩ rfl,
      load3_apply arg4 harg4 x3 ⟨n, hk⟩ j l ⟨n * 1024 + j.val, hj⟩ rfl]
    unfold term
    rw [dif_pos hj]
    by_cases hc : tt.val * 512 + r.val = n * 1024 + j.val
    · rw [if_pos hc, if_pos hc, if_pos rfl]
    · rw [if_neg hc, if_neg hc, if_neg (by decide)]

end Acc

end Cert.KernelIdeal.Hand

end
-- ==== Proof.BlocksI.lean ====
/-
  From the blocks to the arrays, on the kernel's side.

  The region's grid has sixteen points.  The position window and the output window move with the point: at point
  `t` their block is rows `512·t … 512·t + 511` of their array.  The other three windows (the transposed positions,
  the masses, the position table) hold their whole array at every point.  A block's element sits in the array, on
  each axis, at the block index times the block's size plus its own coordinate; the block indices are decided once
  over the grid.  The output's sixteen blocks tile its array (row `i` lies in the block of point `i / 512`), so if
  every point leaves in its block the restriction of one function of the whole array, the array ends at that function.
-/
import proofs.«135620_j89704686944627_2_alg».proof.Proof.FrameI
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.Hand Idealize.ShloMosaic Idealize.ShloMosaic.ValueIdx
  Idealize.ShloMosaic.TcCoe Idealize.SL.Sem Idealize.ShloMosaic.Pipeline

variable (m : (ℓ : Loc nD τ sig) → Buf (Elt Ideal) ℓ) (c : Dev nD)

/-- The block indices, decided over the grid: the position window and the output window are at block `(t, 0)`, the
    three whole-array windows at block `(0, 0)`. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The transposed positions' block is the whole array. -/
theorem iblk1_apply (t : Fin cfg0.N) (y : S3x8192.Idx) :
    (iblk (F := Ideal) m c 1 t : S3x8192.Idx → EReal) y = (V (F := Ideal) m c main_v0 : S3x8192.Idx → EReal) y := by
  obtain ⟨-, -, e0, e1, -⟩ := block_index t
  unfold iblk
  show V m c main_v0 (((cfg0.win 1).blk t).view.emb y) = V m c main_v0 y
  refine congrArg _ (funext fun a => Fin.ext ?_)
  match a with
  | ⟨0, _⟩ => show win0_1.index t (0 : Fin 2) * 3 + 1 * (y 0).val = (y 0).val; omega
  | ⟨1, _⟩ => show win0_1.index t (1 : Fin 2) * 8192 + 1 * (y 1).val = (y 1).val; omega

/-- The masses' block is the whole array. -/
theorem iblk2_apply (t : Fin cfg0.N) (y : S1x8192.Idx) :
    (iblk (F := Ideal) m c 2 t : S1x8192.Idx → EReal) y = (V (F := Ideal) m c main_v1 : S1x8192.Idx → EReal) y := by
  obtain ⟨-, -, -, -, e0, e1, -⟩ := block_index t
  unfold iblk
  show V m c main_v1 (((cfg0.win 2).blk t).view.emb y) = V m c main_v1 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 8192 + 1 * (y 1).val = (y 1).val; omega

/-- The position table's block is the whole array. -/
theorem iblk3_apply (t : Fin cfg0.N) (y : S8192x128.Idx) :
    (iblk (F := Ideal) m c 3 t : S8192x128.Idx → EReal) y = (V (F := Ideal) m c main_v4 : S8192x128.Idx → EReal) y := by
  obtain ⟨-, -, -, -, -, -, e0, e1, -⟩ := block_index t
  unfold iblk
  show V m c main_v4 (((cfg0.win 3).blk t).view.emb y) = V m c main_v4 y
  refine congrArg _ (funext fun a => Fin.ext ?_)
  match a with
  | ⟨0, _⟩ => show win0_3.index t (0 : Fin 2) * 8192 + 1 * (y 0).val = (y 0).val; omega
  | ⟨1, _⟩ => show win0_3.index t (1 : Fin 2) * 128 + 1 * (y 1).val = (y 1).val; omega

/-- The position block at point `t` is rows `512·t … 512·t + 511` of the positions as the region finds them. -/
theorem iblk0_apply (t : Fin cfg0.N) (r : Fin 512) (k : Fin 3) (i : Fin 8192) (hi : i.val = t.val * 512 + r.val) :
    (iblk (F := Ideal) m c 0 t : S512x3.Idx → EReal) (ix2 r k) = (V (F := Ideal) m c main_arg0 : S8192x3.Idx → EReal) (ix2 i k) := by
  obtain ⟨e0, e1, -⟩ := block_index t
  unfold iblk
  show V m c main_arg0 (((cfg0.win 0).blk t).view.emb (ix2 r k)) = V m c main_arg0 (ix2 i k)
  refine congrArg _ (funext fun a => Fin.ext ?_)
  match a with
  | ⟨0, _⟩ => show win0_0.index t (0 : Fin 2) * 512 + 1 * r.val = i.val; omega
  | ⟨1, _⟩ => show win0_0.index t (1 : Fin 2) * 3 + 1 * k.val = k.val; omega

/-! ## The output array -/

/-- What point `t` writes back is block `t` of `G`, when the output block at every point is the block of `G`. -/
theorem flushed4_eq (G : S8192x3.Idx → EReal)
    (hG : ∀ (t : Fin cfg0.N) (r : Fin 512) (d : Fin 3) (i : Fin 8192), i.val = t.val * 512 + r.val →
      outsAt0 (F := Ideal) m c t (ix2 r d) = G (ix2 i d))
    (t : Fin cfg0.N) :
    (dats (F := Ideal) m 0 c).flushed 4 t = ((cfg0.win 4).blk t).view.read (Elt Ideal) G := by
  show (cfg0.win 4).cut (grid0.coords t) ((dats (F := Ideal) m 0 c).after 4 t) = _
  rw [after0_4]
  funext y
  obtain ⟨r, d, rfl⟩ : ∃ (r : Fin 512) (d : Fin 3), y = ix2 r d := ⟨y 0, y 1, eq_ix2 y⟩
  have hN : grid0.N = 16 := N_0
  have ht : t.val < grid0.N := t.isLt
  obtain ⟨-, -, -, -, -, -, -, -, e0, e1⟩ := block_index t
  show outsAt0 m c t (ix2 r d) = G (((cfg0.win 4).blk t).view.emb (ix2 r d))
  rw [hG t r d ⟨t.val * 512 + r.val, by omega⟩ rfl]
  refine congrArg G (funext fun a => Fin.ext ?_)
  match a with
  | ⟨0, _⟩ => show t.val * 512 + r.val = win0_4.index t (0 : Fin 2) * 512 + 1 * r.val; omega
  | ⟨1, _⟩ => show d.val = win0_4.index t (1 : Fin 2) * 3 + 1 * d.val; omega

/-- An index of the output array is in point `t`'s block iff each coordinate is in the block's range on its axis. -/
theorem mem_blk4 (t : Fin cfg0.N) (i : S8192x3.Idx) :
    i ∈ ((cfg0.win 4).blk t).view.set ↔ ∀ a : Fin 2, win0_4.index t a * S512x3.size a ≤ (i a).val ∧ (i a).val < win0_4.index t a * S512x3.size a + S512x3.size a := by
  show i ∈ ((View.whole main_v5).slice (win0_4.rect t)).set ↔ _
  rw [View.set_slice_whole, Rect.mem_set_unit]
  exact Iff.rfl

/-- The sixteen blocks tile the output array: row `i` lies in the block of point `i / 512`. -/
theorem cover4 (i : S8192x3.Idx) : ∃ t : Fin cfg0.N, (cfg0.win 4).flush t = true ∧ i ∈ ((cfg0.win 4).blk t).view.set := by
  have hi0 : (i 0).val < 8192 := (i 0).isLt
  have hi1 : (i 1).val < 3 := (i 1).isLt
  have hN : grid0.N = 16 := N_0
  obtain ⟨t, ht⟩ : ∃ t : Fin cfg0.N, t.val = (i 0).val / 512 :=
    ⟨⟨(i 0).val / 512, by show (i 0).val / 512 < grid0.N; omega⟩, rfl⟩
  refine ⟨t, flush0_4 t, ?_⟩
  rw [mem_blk4]
  obtain ⟨-, -, -, -, -, -, -, -, e0, e1⟩ := block_index t
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 3 ≤ (i 1).val ∧ (i 1).val < win0_4.index t (1 : Fin 2) * 3 + 3; omega

/-- If at every point the output block is the block of one whole-array function `G`, the output array ends at `G`. -/
theorem final4 (G : S8192x3.Idx → EReal)
    (hG : ∀ (t : Fin cfg0.N) (r : Fin 512) (d : Fin 3) (i : Fin 8192), i.val = t.val * 512 + r.val →
      outsAt0 (F := Ideal) m c t (ix2 r d) = G (ix2 i d)) :
    (dats (F := Ideal) m 0 c).arrAt 4 cfg0.N = G :=
  (dats (F := Ideal) m 0 c).arrAt_eq_of_cover 4 G (fun t _ => flushed4_eq m c G hG t) cover4

end Cert.KernelIdeal.Blocks

end
-- ==== Proof.LibHostNary3.lean ====
/-
  A host operation with three operands given as a literal family of references (a concatenation of three arrays):
  its result, with each operand's contents read at its own reference.

  The general statement reads the operands as `fun k => F (ref (xs k))`, under a binder, where the reference
  `xs k` is no literal; for a literal family `![x, a, b]` the three contents can be named one by one, which lets the
  per-operation result lemmas go on rewriting inside them.
-/
import Idealize.ShloMosaic.Lib.StableHlo.Run

noncomputable section

namespace Idealize.ShloMosaic.StableHlo

variable {τ : Topo} {sig : RefSig} {Val : EltTy → Type}
variable {x a b y : Ref sig .tc}

/-- The result of an operation of three operands `![x, a, b]` at its own result buffer is its function of the three
    operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.LibConcatRead.lean ====
/-
  A join of two or three arrays along an axis, with the arrays as plain arguments.

  The library's join takes its pieces as a list of pairs (a shape, an array) together with a proof about the list of
  shapes. Stated over the pieces one by one — the proof first, the arrays after it — the same join can be rewritten
  piece by piece. Each form is the other by definition.
-/
import Idealize.ShloMosaic.PureOps.Ideal

noncomputable section

namespace Cert.LibConcatRead

open Idealize.ShloMosaic

/-- Two arrays joined along axis `a`. -/
def cat2 {α : Type} (t : Shape) (a : Fin t.rank) (S1 S2 : Shape) (hc : Shape.Concatenates [S1, S2] t a)
    (x1 : S1.Idx → α) (x2 : S2.Idx → α) : t.Idx → α :=
  concatenate t a [⟨S1, x1⟩, ⟨S2, x2⟩] hc

/-- Three arrays joined along axis `a`. -/
def cat3 {α : Type} (t : Shape) (a : Fin t.rank) (S1 S2 S3 : Shape) (hc : Shape.Concatenates [S1, S2, S3] t a)
    (x1 : S1.Idx → α) (x2 : S2.Idx → α) (x3 : S3.Idx → α) : t.Idx → α :=
  concatenate t a [⟨S1, x1⟩, ⟨S2, x2⟩, ⟨S3, x3⟩] hc

/-- The library's join of two pieces is `cat2` of them. -/
theorem cat2_intro {α : Type} (t : Shape) (a : Fin t.rank) (S1 S2 : Shape) (hc : Shape.Concatenates [S1, S2] t a)
    (x1 : S1.Idx → α) (x2 : S2.Idx → α) :
    concatenate t a [⟨S1, x1⟩, ⟨S2, x2⟩] hc = cat2 t a S1 S2 hc x1 x2 := rfl

/-- The library's join of three pieces is `cat3` of them. -/
theorem cat3_intro {α : Type} (t : Shape) (a : Fin t.rank) (S1 S2 S3 : Shape) (hc : Shape.Concatenates [S1, S2, S3] t a)
    (x1 : S1.Idx → α) (x2 : S2.Idx → α) (x3 : S3.Idx → α) :
    concatenate t a [⟨S1, x1⟩, ⟨S2, x2⟩, ⟨S3, x3⟩] hc = cat3 t a S1 S2 S3 hc x1 x2 x3 := rfl

end Cert.LibConcatRead

end
-- ==== Proof.HostRead.lean ====
/-
  What the region finds in the three arrays the host operations build, read index by index.

  The transposed positions at (k, j) are the launched positions at (j, k); the reshaped masses at (0, j) are the
  launched masses at j; the widened position table at (j, l) is the launched position for l < 3, the word of 1 in
  column 3, and the word of 0 beyond.
-/
import proofs.«135620_j89704686944627_2_alg».proof.Proof.FrameKitI
import proofs.«135620_j89704686944627_2_alg».proof.Proof.Spec
import proofs.«135620_j89704686944627_2_alg».proof.Proof.LibHostNary3
import proofs.«135620_j89704686944627_2_alg».proof.Proof.LibConcatRead
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostRead

open Cert.KernelIdeal Cert.KernelIdeal.Gen Cert.KernelIdeal.Hand
open Idealize.ShloMosaic Idealize.ShloMosaic.ValueIdx Idealize.ShloMosaic.TcCoe Idealize.SL.Sem

variable (m : (ℓ : Loc nD τ sig) → Buf (Elt Ideal) ℓ) (c : Dev nD)

/-- The transposed positions, as the host operations' term. -/
theorem V_main_v0_eq :
    (V (F := Ideal) m c main_v0 : S3x8192.Idx → EReal)
      = transpose S3x8192 [1, 0] (m ((c : Thread nD τ).loc main_arg0) : S8192x3.Idx → EReal) transposes_S8192x3_S3x8192_1_0 := by
  dsimp only [V, hostOps0]
  after_results

/-- The transposed positions at (k, j) are the launched positions at (j, k). -/
theorem V_main_v0_apply (k : Fin 3) (j : Fin 8192) :
    (V (F := Ideal) m c main_v0 : S3x8192.Idx → EReal) (ix2 k j)
      = (m ((c : Thread nD τ).loc main_arg0) : S8192x3.Idx → EReal) (ix2 j k) := by
  rw [V_main_v0_eq]
  exact transpose_ix2_apply _ _ k j

/-- The reshaped masses, as the host operations' term. -/
theorem V_main_v1_eq :
    (V (F := Ideal) m c main_v1 : S1x8192.Idx → EReal)
      = shapeCast S1x8192 (m ((c : Thread nD τ).loc main_arg1) : S8192.Idx → EReal) shapeCasts_S8192_S1x8192 := by
  dsimp only [V, hostOps0]
  after_results
  rfl

/-- The reshaped masses at (0, j) are the launched masses at j. -/
theorem V_main_v1_apply (j : Fin 8192) :
    (V (F := Ideal) m c main_v1 : S1x8192.Idx → EReal) (ix2 0 j)
      = (m ((c : Thread nD τ).loc main_arg1) : S8192.Idx → EReal) (ix1 j) := by
  rw [V_main_v1_eq]
  exact shapeCast_a_1a_apply _ _ 0 j

open Cert.LibConcatRead

/-- The three-piece join along the columns read at (j, l): the first piece holds columns 0–2, the second column 3,
    the third columns 4–127. -/
theorem cat3_apply {α : Type} (x1 : S8192x3.Idx → α) (x2 : S8192x1.Idx → α) (x3 : S8192x124.Idx → α)
    (j : Fin 8192) (l : Fin 128) :
    cat3 S8192x128 1 S8192x3 S8192x1 S8192x124 concatenates_S8192x3_S8192x1_S8192x124_S8192x128_d1 x1 x2 x3 (ix2 j l)
      = if h : l.val < 3 then x1 (ix2 j ⟨l.val, h⟩)
        else if h3 : l.val = 3 then x2 (ix2 j 0)
        else x3 (ix2 j ⟨l.val - 4, by omega⟩) := by
  unfold cat3
  split_ifs with h h3
  · exact concatenate_apply_piece 1 _ _ (ix2 j l) 0 (by show (0 : ℕ) < 3; omega) S8192x3 x1 rfl rfl 0 rfl (ix2 j ⟨l.val, h⟩)
      (fun b hb => match b, hb with | ⟨0, _⟩, _ => rfl | ⟨1, _⟩, hb => absurd rfl hb)
      (Nat.zero_add _)
  · exact concatenate_apply_piece 1 _ _ (ix2 j l) 1 (by show (1 : ℕ) < 3; omega) S8192x1 x2 rfl rfl 3 rfl (ix2 j 0)
      (fun b hb => match b, hb with | ⟨0, _⟩, _ => rfl | ⟨1, _⟩, hb => absurd rfl hb)
      (by show 3 + 0 = l.val; omega)
  · exact concatenate_apply_piece 1 _ _ (ix2 j l) 2 (by show (2 : ℕ) < 3; omega) S8192x124 x3 rfl rfl 4 rfl (ix2 j ⟨l.val - 4, by omega⟩)
      (fun b hb => match b, hb with | ⟨0, _⟩, _ => rfl | ⟨1, _⟩, hb => absurd rfl hb)
      (by show 4 + (l.val - 4) = l.val; omega)

/-- The joining operation's result over any contents: the three operands, each read at its own reference, joined. -/
theorem cat_result (W : Valuation τ sig (Elt Ideal)) (hxs hy) :
    (StableHlo.nary (τ := τ) ![main_arg0, main_v2, main_v3] main_v4
        (fun u => concatenate S8192x128 1 [⟨S8192x3, u 0⟩, ⟨S8192x1, u 1⟩, ⟨S8192x124, u 2⟩]
          concatenates_S8192x3_S8192x1_S8192x124_S8192x128_d1) hxs hy).result W (Proc.devRef .tc main_v4)
      = cat3 S8192x128 1 S8192x3 S8192x1 S8192x124 concatenates_S8192x3_S8192x1_S8192x124_S8192x128_d1
          (W (Proc.devRef .tc main_arg0)) (W (Proc.devRef .tc main_v2)) (W (Proc.devRef .tc main_v3)) :=
  StableHlo.nary3_result _ _ _ _

/-- The widened position table, as the host operations' term: the launched positions, a column of the word of 1,
    and 124 columns of the word of 0, joined along the columns. -/
theorem V_main_v4_eq :
    (V (F := Ideal) m c main_v4 : S8192x128.Idx → EReal)
      = cat3 S8192x128 1 S8192x3 S8192x1 S8192x124 concatenates_S8192x3_S8192x1_S8192x124_S8192x128_d1
          (m ((c : Thread nD τ).loc main_arg0) : S8192x3.Idx → EReal)
          (broadcastInDim S8192x1 ![] bcast_S_S8192x1 (constant (F := Ideal) S_ .f32 0x3F800000#32))
          (broadcastInDim S8192x124 ![] bcast_S_S8192x124 (constant (F := Ideal) S_ .f32 0x00000000#32)) := by
  dsimp only [V, hostOps0]
  simp only [StableHlo.after_cons, StableHlo.after_nil]
  rw [cat_result]
  after_results_simp

/-- The widened position table at (j, l): the launched position for l < 3, the word of 1 in column 3, the word of 0
    beyond. -/
theorem V_main_v4_apply (j : Fin 8192) (l : Fin 128) :
    (V (F := Ideal) m c main_v4 : S8192x128.Idx → EReal) (ix2 j l)
      = if h : l.val < 3 then (m ((c : Thread nD τ).loc main_arg0) : S8192x3.Idx → EReal) (ix2 j ⟨l.val, h⟩)
        else if l.val = 3 then Cert.Force.one else Cert.Force.zero := by
  rw [V_main_v4_eq, cat3_apply]
  split_ifs with h h3
  · rfl
  · rfl
  · rfl

end Cert.KernelIdeal.HostRead

end
-- ==== Proof.KernelValueI.lean ====
/-
  The kernel's result array at the ideal instance.

  With P the launched positions and M the launched masses: the position block at point t holds rows 512·t … of P,
  the transposed positions hold P(j, k) at (k, j), the reshaped masses hold M(j) at (0, j), and the position table
  holds P(j, l) in lanes 0..2, one in lane 3 and zero beyond. So the accumulator's lanes 0..2 hold the
  position-weighted sums of the masked magnitudes and lane 3 holds their plain sum, the output block's entry (r, d)
  is the kernel's force formula at particle 512·t + r, and since the sixteen blocks tile the array, the result array
  ends at that formula index by index, the arguments unchanged.
-/
import proofs.«135620_j89704686944627_2_alg».proof.Proof.ValueIdealI
import proofs.«135620_j89704686944627_2_alg».proof.Proof.BlocksI
import proofs.«135620_j89704686944627_2_alg».proof.Proof.HostRead

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

open Cert.KernelIdeal.Blocks Cert.KernelIdeal.HostRead

variable (m : (ℓ : Loc nD τ sig) → Buf (Elt Ideal) ℓ) (c : Dev nD)

/-- The launched positions, by particle and coordinate. -/
def posOf : Fin 8192 → Fin 3 → EReal := fun a k => (m ((c : Thread nD τ).loc main_arg0) : S8192x3.Idx → EReal) (ix2 a k)
/-- The launched masses, by particle. -/
def massOf : Fin 8192 → EReal := fun j => (m ((c : Thread nD τ).loc main_arg1) : S8192.Idx → EReal) (ix1 j)

/-- The grid is one axis of sixteen points: the coordinate of point t is t. -/
theorem coords_val : ∀ t : Fin cfg0.N, ((grid0.coords t) 0).val = t.val :=
  (by decide +kernel : ∀ t : Fin grid0.N, ((grid0.coords t) 0).val = t.val)

/-- The loop runs eight trips. -/
theorem trips_eq : k0_t1_loop.trips = 8 := by decide +kernel

/-! ## The four input blocks, as the launched arrays -/

theorem x0_apply (t : Fin cfg0.N) (r : Fin 512) (k : Fin 3) (i : Fin 8192) (hi : i.val = t.val * 512 + r.val) :
    (iblk (F := Ideal) m c 0 t : S512x3.Idx → EReal) (ix2 r k) = posOf m c i k := by
  rw [iblk0_apply m c t r k i hi, V_main_arg0]; rfl

theorem x1_apply (t : Fin cfg0.N) (k : Fin 3) (j : Fin 8192) :
    (iblk (F := Ideal) m c 1 t : S3x8192.Idx → EReal) (ix2 k j) = posOf m c j k := by
  rw [iblk1_apply m c t, V_main_v0_apply m c k j]; rfl

theorem x2_apply (t : Fin cfg0.N) (j : Fin 8192) :
    (iblk (F := Ideal) m c 2 t : S1x8192.Idx → EReal) (ix2 0 j) = massOf m c j := by
  rw [iblk2_apply m c t, V_main_v1_apply m c j]; rfl

theorem x3_pos (t : Fin cfg0.N) (j : Fin 8192) (d : Fin 3) :
    (iblk (F := Ideal) m c 3 t : S8192x128.Idx → EReal) (ix2 j ⟨d.val, by omega⟩) = posOf m c j d := by
  rw [iblk3_apply m c t, V_main_v4_apply m c j ⟨d.val, by omega⟩, dif_pos (show (⟨d.val, by omega⟩ : Fin 128).val < 3 from d.isLt)]; rfl

theorem x3_one (t : Fin cfg0.N) (j : Fin 8192) :
    (iblk (F := Ideal) m c 3 t : S8192x128.Idx → EReal) (ix2 j ⟨3, by omega⟩) = Cert.Force.one := by
  rw [iblk3_apply m c t, V_main_v4_apply m c j ⟨3, by omega⟩, dif_neg (show ¬ (⟨3, by omega⟩ : Fin 128).val < 3 by decide), if_pos rfl]

/-! ## The particles' contributions -/

/-- The magnitude between row r of point t's block and particle j, zeroed on the row's own particle, is the
    kernel's masked magnitude between particles 512·t + r and j. -/
theorem mask_eq (t : Fin cfg0.N) (tt : Fin 16) (htt : tt.val = t.val) (r : Fin 512) (i : Fin 8192) (hi : i.val = t.val * 512 + r.val) (j : Fin 8192) :
    (if tt.val * 512 + r.val = j.val then Cert.Force.zero
      else Cert.Force.magOf ((iblk (F := Ideal) m c 0 t : S512x3.Idx → EReal) (ix2 r 0)) ((iblk (F := Ideal) m c 0 t : S512x3.Idx → EReal) (ix2 r 1)) ((iblk (F := Ideal) m c 0 t : S512x3.Idx → EReal) (ix2 r 2))
        ((iblk (F := Ideal) m c 1 t : S3x8192.Idx → EReal) (ix2 0 j)) ((iblk (F := Ideal) m c 1 t : S3x8192.Idx → EReal) (ix2 1 j)) ((iblk (F := Ideal) m c 1 t : S3x8192.Idx → EReal) (ix2 2 j))
        ((iblk (F := Ideal) m c 2 t : S1x8192.Idx → EReal) (ix2 0 j)))
      = Cert.Force.kerMask (posOf m c) (massOf m c) i j := by
  rw [x0_apply m c t r 0 i hi, x0_apply m c t r 1 i hi, x0_apply m c t r 2 i hi, x1_apply m c t 0 j, x1_apply m c t 1 j, x1_apply m c t 2 j, x2_apply m c t j]
  unfold Cert.Force.kerMask Cert.Force.kerMag
  by_cases h : i = j
  · rw [if_pos (by rw [htt, ← hi, h]), if_pos h]
  · rw [if_neg (fun e => h (Fin.ext (by omega))), if_neg h]

/-- Particle j's contribution to lane d < 3 is its masked magnitude times its position's coordinate d. -/
theorem term_pos (t : Fin cfg0.N) (tt : Fin 16) (htt : tt.val = t.val) (r : Fin 512) (i : Fin 8192) (hi : i.val = t.val * 512 + r.val) (d : Fin 3) (j : Fin 8192) :
    term (iblk m c 0 t) (iblk m c 1 t) (iblk m c 2 t) (iblk m c 3 t) tt r ⟨d.val, by omega⟩ j.val
      = Cert.Force.kerMask (posOf m c) (massOf m c) i j * posOf m c j d := by
  unfold term
  rw [dif_pos j.isLt]
  exact congrArg₂ (· * ·) (mask_eq m c t tt htt r i hi j) (x3_pos m c t j d)

/-- Particle j's contribution to lane 3 is its masked magnitude times one. -/
theorem term_one (t : Fin cfg0.N) (tt : Fin 16) (htt : tt.val = t.val) (r : Fin 512) (i : Fin 8192) (hi : i.val = t.val * 512 + r.val) (j : Fin 8192) :
    term (iblk m c 0 t) (iblk m c 1 t) (iblk m c 2 t) (iblk m c 3 t) tt r ⟨3, by omega⟩ j.val
      = Cert.Force.kerMask (posOf m c) (massOf m c) i j * Cert.Force.one := by
  unfold term
  rw [dif_pos j.isLt]
  exact congrArg₂ (· * ·) (mask_eq m c t tt htt r i hi j) (x3_one m c t j)

/-! ## The output block and the result array -/

/-- The output block's entry (r, d) at point t is the kernel's force on particle 512·t + r, coordinate d. -/
theorem outsAt_apply (t : Fin cfg0.N) (r : Fin 512) (d : Fin 3) (i : Fin 8192) (hi : i.val = t.val * 512 + r.val) :
    outsAt0 (F := Ideal) m c t (ix2 r d) = Cert.Force.kerForce (posOf m c) (massOf m c) i d := by
  have hN : t.val < 16 := lt_of_lt_of_eq t.isLt (show cfg0.N = 16 from N_0)
  have e8 : ∀ f : ℕ → EReal, Cert.Force.accR f k0_t1_loop.trips = ∑ j : Fin 8192, f j.val := fun f => by
    rw [trips_eq]; exact Cert.Force.accR_eight f
  unfold outsAt0
  rw [out_eq]
  refine (Cert.Force.Pay.pay3_apply _ _ r d).trans ?_
  rw [show BitVec.ofNat 32 ((grid0.coords t) 0).val = BitVec.ofNat 32 (⟨t.val, hN⟩ : Fin 16).val from congrArg _ (coords_val t)]
  rw [acc_apply (iblk m c 0 t) (iblk m c 1 t) (iblk m c 2 t) (iblk m c 3 t) ⟨t.val, hN⟩ Variants.none c none (grid0.coords t) (ms0_0 t) (hs0_0 t) (ms0_1 t) (hs0_1 t) (ms0_2 t) (hs0_2 t) (ms0_3 t) (hs0_3 t) (ms0_4 t) (hs0_4 t) msS hsS k0_t1_loop.trips le_rfl r ⟨d.val, by omega⟩,
    acc_apply (iblk m c 0 t) (iblk m c 1 t) (iblk m c 2 t) (iblk m c 3 t) ⟨t.val, hN⟩ Variants.none c none (grid0.coords t) (ms0_0 t) (hs0_0 t) (ms0_1 t) (hs0_1 t) (ms0_2 t) (hs0_2 t) (ms0_3 t) (hs0_3 t) (ms0_4 t) (hs0_4 t) msS hsS k0_t1_loop.trips le_rfl r ⟨3, by omega⟩,
    e8, e8]
  unfold Cert.Force.kerForce Cert.Force.kerS2 Cert.Force.kerS1
  refine congrArg₂ (· - ·) (Finset.sum_congr rfl fun j _ => term_pos m c t ⟨t.val, hN⟩ rfl r i hi d j) ?_
  refine congrArg₂ (· * ·) (x0_apply m c t r d i hi) (Finset.sum_congr rfl fun j _ => term_one m c t ⟨t.val, hN⟩ rfl r i hi j)

/-- The kernel's force formula as an array over [8192, 3]. -/
def forceOf : S8192x3.Idx → EReal := fun y => Cert.Force.kerForce (posOf m c) (massOf m c) ⟨(y 0).val, (y 0).isLt⟩ ⟨(y 1).val, (y 1).isLt⟩

/-- The result array ends at the kernel's force formula. -/
theorem final_v5 : (dats (F := Ideal) m 0 c).arrAt 4 cfg0.N = forceOf m c :=
  final4 m c (forceOf m c) fun t r d i hi => (outsAt_apply m c t r d i hi).trans rfl

/-- The run, read: the result array at the kernel's force formula, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v5) = forceOf m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 4).trans (final_v5 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Hand

end
-- ==== Proof.RefRead.lean ====
/-
  The reference program's result, read at one index, is the specification's `refForce`.

  The reference broadcasts the position table along two axes, subtracts, squares, sums the squares over the
  coordinate axis onto the initial value 0, adds ε, raises to the exponent −3/2, multiplies by the (unit-scaled)
  mass, multiplies by the displacement and sums over the particle axis onto the initial value 0.  Each stage is
  read at an index with literal coordinates; the composed layout maps are identified with the coordinate
  constructors, and the stages are then chained.
-/
import proofs.«135620_j89704686944627_2_alg».proof.Proof.Spec
import proofs.«135620_j89704686944627_2_alg».proof.Proof.Gen.ReferenceIdeal.Read
import Idealize.ShloMosaic.Lib.ValueIdx

noncomputable section

namespace Cert.Force.Ref

open Idealize.ShloMosaic Idealize.ShloMosaic.ValueIdx
open Cert.ReferenceIdeal Cert.ReferenceIdeal.Read
open scoped BigOperators

/-! ## The composed layout maps at literal coordinates -/

/-- Row `j` of the table, seen through the two broadcasts `[8192,3] → [1,8192,3] → [8192,8192,3]`. -/
theorem idx_row (i j : Fin 8192) (k : Fin 3) :
    idx_main_v0 (idx_main_v2 (ix3 i j k)) = ix2 j k :=
  funext fun a => Fin.ext (by match a with | ⟨0, _⟩ => rfl | ⟨1, _⟩ => rfl)

/-- Row `i` of the table, seen through the two broadcasts `[8192,3] → [8192,1,3] → [8192,8192,3]`. -/
theorem idx_col (i j : Fin 8192) (k : Fin 3) :
    idx_main_v1 (idx_main_v3 (ix3 i j k)) = ix2 i k :=
  funext fun a => Fin.ext (by match a with | ⟨0, _⟩ => rfl | ⟨1, _⟩ => rfl)

/-- The coordinate sum's operand index. -/
theorem idx_sumk (i j : Fin 8192) (k : Fin 3) :
    idx_main_v6 (ix2 i j) k = ix3 i j k :=
  funext fun a => Fin.ext (by match a with | ⟨0, _⟩ => rfl | ⟨1, _⟩ => rfl | ⟨2, _⟩ => rfl)

/-- The mass of particle `j`, seen through `[8192] → [1,8192] → [8192,8192]`. -/
theorem idx_mass (i j : Fin 8192) :
    idx_main_v11 (idx_main_v14 (ix2 i j)) = ix1 j :=
  funext fun a => Fin.ext (by match a with | ⟨0, _⟩ => rfl)

/-- The magnitude of the pair `(i, j)`, seen through `[8192,8192] → [8192,8192,1] → [8192,8192,3]`. -/
theorem idx_mag (i j : Fin 8192) (d : Fin 3) :
    idx_main_v16 (idx_main_v17 (ix3 i j d)) = ix2 i j :=
  funext fun a => Fin.ext (by match a with | ⟨0, _⟩ => rfl | ⟨1, _⟩ => rfl)

/-- The particle sum's operand index. -/
theorem idx_sumj (i : Fin 8192) (d : Fin 3) (j : Fin 8192) :
    idx_main_v19 (ix2 i d) j = ix3 i j d :=
  funext fun a => Fin.ext (by match a with | ⟨0, _⟩ => rfl | ⟨1, _⟩ => rfl | ⟨2, _⟩ => rfl)

/-! ## The stages at literal coordinates -/

variable (x0 : (⟨S8192x3, .f32⟩ : BufTy).Contents (Elt Ideal))
  (x1 : (⟨S8192, .f32⟩ : BufTy).Contents (Elt Ideal))

/-- The displacement `p_j − p_i`, coordinate `k`. -/
theorem disp_apply (i j : Fin 8192) (k : Fin 3) :
    val_main_v4 (F := Ideal) x0 (ix3 i j k) = x0 (ix2 j k) - x0 (ix2 i k) := by
  rw [val_main_v4_apply, val_main_v2_apply, val_main_v0_apply, val_main_v3_apply, val_main_v1_apply,
    idx_row, idx_col, Ideal.subf_def]

/-- The softened squared distance. -/
theorem dsq_apply (i j : Fin 8192) :
    val_main_v8 (F := Ideal) x0 (ix2 i j)
      = (Cert.Force.zero + ∑ k : Fin 3, (x0 (ix2 j k) - x0 (ix2 i k)) * (x0 (ix2 j k) - x0 (ix2 i k)))
          + Cert.Force.eps := by
  rw [val_main_v8_apply, val_main_v6_apply, val_main_v7_apply, val_main_cst_apply, val_main_cst_0_apply,
    Ideal.addf_def, Ideal.ofBits_def, Ideal.ofBits_def]
  refine congrArg (· + Cert.Force.eps) (congrArg (Cert.Force.zero + ·) (Finset.sum_congr rfl fun k _ => ?_))
  rw [idx_sumk, val_main_v5_apply, disp_apply, Ideal.mulf_def]

/-- The magnitude `(1 · m_j) · d^(−3/2)`. -/
theorem mag_apply (i j : Fin 8192) :
    val_main_v15 (F := Ideal) x0 x1 (ix2 i j)
      = (Cert.Force.one * x1 (ix1 j)) * Ideal.pow (val_main_v8 (F := Ideal) x0 (ix2 i j)) Cert.Force.expo := by
  rw [val_main_v15_apply, val_main_v14_apply, val_main_v13_apply, val_main_v12_apply, val_main_cst_2_apply,
    val_main_v11_apply, idx_mass, val_main_v10_apply, val_main_v9_apply, val_main_cst_1_apply,
    Ideal.mulf_def, Ideal.mulf_def, Ideal.hostPowf_def, Ideal.ofBits_def, Ideal.ofBits_def]

/-- One term of the particle sum. -/
theorem term_apply (i j : Fin 8192) (d : Fin 3) :
    val_main_v18 (F := Ideal) x0 x1 (ix3 i j d)
      = val_main_v15 (F := Ideal) x0 x1 (ix2 i j) * (x0 (ix2 j d) - x0 (ix2 i d)) := by
  rw [val_main_v18_apply, val_main_v17_apply, val_main_v16_apply, idx_mag, disp_apply, Ideal.mulf_def]

end Cert.Force.Ref

namespace Cert.Force.Ref

open Idealize.ShloMosaic Idealize.ShloMosaic.ValueIdx in
theorem ref_apply (x0 : (⟨Cert.ReferenceIdeal.S8192x3, .f32⟩ : BufTy).Contents (Elt Ideal))
    (x1 : (⟨Cert.ReferenceIdeal.S8192, .f32⟩ : BufTy).Contents (Elt Ideal)) (i : Fin 8192) (d : Fin 3) :
    Cert.ReferenceIdeal.Read.val_main_v19 (F := Ideal) x0 x1 (ix2 i d)
      = Cert.Force.refForce (fun a k => x0 (ix2 a k)) (fun j => x1 (ix1 j)) i d := by
  rw [Cert.ReferenceIdeal.Read.val_main_v19_apply, Cert.ReferenceIdeal.Read.val_main_cst_3_apply, Ideal.ofBits_def]
  unfold Cert.Force.refForce Cert.Force.refMag Cert.Force.refDsq
  refine congrArg (Cert.Force.zero + ·) (Finset.sum_congr rfl fun j _ => ?_)
  rw [idx_sumj, term_apply, mag_apply, dsq_apply]

end Cert.Force.Ref

end
-- ==== Proof.Finite.lean ====
/-
  Under the precondition every entry of the two argument arrays is a real number.

  The precondition is the conjunction of two "all entries satisfy |x| < +∞" tests, one per argument array, each a
  reduction by `and` of the elementwise comparison against the word of +∞.  A reduction by `and` that comes out 1
  met a 1 at every entry; an extended real whose absolute value `max x (−x)` is strictly below ⊤ is neither ⊥ nor ⊤,
  hence a real.
-/
import proofs.«135620_j89704686944627_2_alg».proof.Proof.Spec
import proofs.«135620_j89704686944627_2_alg».proof.Defs
import Idealize.ShloMosaic.Lib.ReduceAll
import Idealize.ShloMosaic.Lib.ValueIdx

noncomputable section

namespace Cert.Force.Fin

open Idealize.ShloMosaic Idealize.ShloMosaic.ValueIdx Idealize.SL.Sem

/-- The scalar shape has one index. -/
theorem scalar_idx_subsingleton : Subsingleton Cert.Pre_finite_inputs.S_.Idx := ⟨fun a b => funext fun d => d.elim0⟩

/-- The word `0x7F800000` denotes +∞. -/
theorem inf_word : Ideal.ofBits .f32 0x7F800000#32 = (⊤ : EReal) := by
  simp [Ideal.ofBits, Ideal.ieee]

/-- An extended real whose absolute value compares strictly below +∞ is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => exact absurd h (by simp [Ideal.cmp])
  | coe r => exact ⟨r, rfl⟩
  | top => exact absurd h (by simp [Ideal.cmp])

end Cert.Force.Fin

namespace Cert.Force.Fin

open Idealize.ShloMosaic Idealize.ShloMosaic.ValueIdx Idealize.SL.Sem in
theorem finite_pos [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (i : Fin 8192) (k : Fin 3) :
    ∃ r : ℝ, m ((c.tc : Thread Cert.KernelIdeal.nD Cert.KernelIdeal.τ).loc Cert.KernelIdeal.main_arg0) (ix2 i k) = (r : EReal) := by
  haveI := scalar_idx_subsingleton
  have e := congrFun (h c) ValueIdx.ix0
  dsimp only [Cert.Pre_finite_inputs.fn] at e
  obtain ⟨e0, -⟩ := IntOp.andi_eq_one.1 e
  have e2 := Host.reduce_andi_all _ _ _ _ _ e0 (ix2 i k)
  exact real_of_abs_lt _ e2

open Idealize.ShloMosaic Idealize.ShloMosaic.ValueIdx Idealize.SL.Sem in
theorem finite_mass [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (j : Fin 8192) :
    ∃ r : ℝ, m ((c.tc : Thread Cert.KernelIdeal.nD Cert.KernelIdeal.τ).loc Cert.KernelIdeal.main_arg1) (ix1 j) = (r : EReal) := by
  haveI := scalar_idx_subsingleton
  have e := congrFun (h c) ValueIdx.ix0
  dsimp only [Cert.Pre_finite_inputs.fn] at e
  obtain ⟨-, e1⟩ := IntOp.andi_eq_one.1 e
  have e2 := Host.reduce_andi_all _ _ _ _ _ e1 (ix1 j)
  exact real_of_abs_lt _ e2

end Cert.Force.Fin

end
-- ==== Proof.ForceLaw.lean ====
/-
  The algebraic law: over the extended reals, the kernel's force formula and the reference's force formula
  agree whenever every position and every mass is a real number.

  Road.  The four literal words are 0, 1, −3/2 and a positive real ε.  For real inputs the softened squared
  distance δ_ij = |p_j − p_i|² + ε is a positive real (in either grouping), so the reciprocal square root and
  the power are both real, and (√δ)⁻¹ · (√δ)⁻¹ · (√δ)⁻¹ = δ^(−3/2).  Hence both magnitudes are the coercion of
  one real f_ij = m_j · δ_ij^(−3/2).  The term j = i contributes nothing on either side, and in ℝ
  Σ_j g_ij · (p_jd − p_id) = Σ_j g_ij · p_jd − p_id · Σ_j g_ij.
-/
import proofs.«135620_j89704686944627_2_alg».proof.Proof.Spec

noncomputable section

namespace Cert.Force

open Idealize.ShloMosaic
open scoped BigOperators

/-! ## The four literal words -/

section Consts

/-- The word of 0 denotes 0. -/
theorem zero_eq : zero = 0 := by
  simp [zero, Ideal.ofBits, Ideal.ieee]

/-- The word of 1 denotes 1. -/
theorem one_eq : one = 1 := by
  simp [one, Ideal.ofBits, Ideal.ieee, -EReal.coe_mul]; norm_num

/-- The word of the exponent denotes the real −3/2. -/
theorem expo_eq : expo = ((-(3 / 2) : ℝ) : EReal) := by
  simp [expo, Ideal.ofBits, Ideal.ieee, -EReal.coe_mul]; norm_num

/-- The softening word denotes some positive real. -/
theorem eps_eq : ∃ ε : ℝ, 0 < ε ∧ eps = (ε : EReal) := by
  simp [eps, Ideal.ofBits, Ideal.ieee, -EReal.coe_mul]

end Consts

/-- The softening term as a real number. -/
def epsR : ℝ := eps.toReal

theorem eps_coe : eps = (epsR : EReal) := by
  obtain ⟨ε, -, h⟩ := eps_eq
  rw [epsR, h, EReal.toReal_coe]

theorem epsR_pos : 0 < epsR := by
  obtain ⟨ε, hε, h⟩ := eps_eq
  rw [epsR, h, EReal.toReal_coe]; exact hε

/-! ## Coercion of a finite sum of reals -/

theorem coe_sum {ι : Type*} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-! ## The cube of the reciprocal square root is the power −3/2 -/

theorem inv_sqrt_cube {x : ℝ} (hx : 0 < x) :
    ((Real.sqrt x)⁻¹ * (Real.sqrt x)⁻¹) * (Real.sqrt x)⁻¹ = Real.rpow x (-(3 / 2)) := by
  have h : (Real.sqrt x)⁻¹ = x ^ (-(1 / 2) : ℝ) := by
    rw [Real.sqrt_eq_rpow, Real.rpow_neg hx.le]
  show _ = x ^ (-(3 / 2) : ℝ)
  rw [h, ← Real.rpow_add hx, ← Real.rpow_add hx]
  norm_num

/-- On a positive real the reciprocal square root is the real reciprocal of the real square root. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

/-! ## The real-valued counterparts -/

section Real

variable (p : Fin 8192 → Fin 3 → ℝ) (μ : Fin 8192 → ℝ)

/-- The softened squared distance δ_ij = ε + |p_i − p_j|², in the kernel's grouping. -/
def rD (i j : Fin 8192) : ℝ :=
  ((epsR + (p i 0 - p j 0) * (p i 0 - p j 0)) + (p i 1 - p j 1) * (p i 1 - p j 1))
    + (p i 2 - p j 2) * (p i 2 - p j 2)

/-- δ_ij is positive: a sum of squares is nonnegative and ε is positive. -/
theorem rD_pos (i j : Fin 8192) : 0 < rD p i j := by
  have h0 := mul_self_nonneg (p i 0 - p j 0)
  have h1 := mul_self_nonneg (p i 1 - p j 1)
  have h2 := mul_self_nonneg (p i 2 - p j 2)
  have hε := epsR_pos
  unfold rD; linarith

/-- The magnitude f_ij = m_j · δ_ij^(−3/2). -/
def rF (i j : Fin 8192) : ℝ := μ j * Real.rpow (rD p i j) (-(3 / 2))

/-- The magnitude with the self term zeroed. -/
def rG (i j : Fin 8192) : ℝ := if i = j then 0 else rF p μ i j

/-- The kernel's softened squared distance of real points is a real number. -/
theorem dsqOf_coe (a0 a1 a2 b0 b1 b2 : ℝ) :
    dsqOf (a0 : EReal) a1 a2 b0 b1 b2
      = ((((epsR + (a0 - b0) * (a0 - b0)) + (a1 - b1) * (a1 - b1)) + (a2 - b2) * (a2 - b2) : ℝ) : EReal) := by
  rw [dsqOf, eps_coe]
  simp only [← EReal.coe_sub, ← EReal.coe_mul, ← EReal.coe_add]

/-- The kernel's magnitude is the coercion of f_ij. -/
theorem kerMag_coe (i j : Fin 8192) :
    kerMag (fun i k => (p i k : EReal)) (fun j => (μ j : EReal)) i j = (rF p μ i j : EReal) := by
  show magOf (p i 0 : EReal) (p i 1) (p i 2) (p j 0) (p j 1) (p j 2) (μ j) = _
  rw [magOf, dsqOf_coe]
  have hpos : 0 < ((epsR + (p i 0 - p j 0) * (p i 0 - p j 0)) + (p i 1 - p j 1) * (p i 1 - p j 1))
      + (p i 2 - p j 2) * (p i 2 - p j 2) := rD_pos p i j
  rw [rsqrt_pos hpos, one_eq, one_mul, ← EReal.coe_mul, ← EReal.coe_mul, ← EReal.coe_mul, inv_sqrt_cube hpos]
  rfl

/-- The reference's softened squared distance is the coercion of δ_ij. -/
theorem refDsq_coe (i j : Fin 8192) :
    refDsq (fun i k => (p i k : EReal)) i j = (rD p i j : EReal) := by
  rw [refDsq, zero_eq, zero_add, Fin.sum_univ_three, eps_coe]
  simp only [← EReal.coe_sub, ← EReal.coe_mul, ← EReal.coe_add]
  congr 1
  unfold rD; ring

/-- The reference's magnitude is the coercion of f_ij. -/
theorem refMag_coe (i j : Fin 8192) :
    refMag (fun i k => (p i k : EReal)) (fun j => (μ j : EReal)) i j = (rF p μ i j : EReal) := by
  rw [refMag, refDsq_coe, expo_eq, Ideal.pow_coe_coe, one_eq, one_mul, ← EReal.coe_mul]
  rfl

/-- The masked magnitude is the coercion of g_ij. -/
theorem kerMask_coe (i j : Fin 8192) :
    kerMask (fun i k => (p i k : EReal)) (fun j => (μ j : EReal)) i j = (rG p μ i j : EReal) := by
  unfold kerMask rG
  split_ifs with h
  · rw [zero_eq, EReal.coe_zero]
  · exact kerMag_coe p μ i j

end Real

/-! ## The identity in ℝ and the assembly -/

section Assemble

variable (p : Fin 8192 → Fin 3 → ℝ) (μ : Fin 8192 → ℝ)

/-- In ℝ: the split sums of the masked magnitudes equal the reference's single sum.  The term j = i is zero on
    both sides, and elsewhere g_ij = f_ij. -/
theorem real_law (i : Fin 8192) (d : Fin 3) :
    (∑ j : Fin 8192, rG p μ i j * p j d) - p i d * ∑ j : Fin 8192, rG p μ i j
      = ∑ j : Fin 8192, rF p μ i j * (p j d - p i d) := by
  rw [Finset.mul_sum, ← Finset.sum_sub_distrib]
  refine Finset.sum_congr rfl fun j _ => ?_
  unfold rG
  split_ifs with h
  · subst h; ring
  · ring

/-- The kernel's force on real inputs is the coercion of the split real sums. -/
theorem kerForce_coe (i : Fin 8192) (d : Fin 3) :
    kerForce (fun i k => (p i k : EReal)) (fun j => (μ j : EReal)) i d
      = (((∑ j : Fin 8192, rG p μ i j * p j d) - p i d * ∑ j : Fin 8192, rG p μ i j : ℝ) : EReal) := by
  have h2 : kerS2 (fun i k => (p i k : EReal)) (fun j => (μ j : EReal)) i d
      = ((∑ j : Fin 8192, rG p μ i j * p j d : ℝ) : EReal) := by
    rw [kerS2, coe_sum]
    refine Finset.sum_congr rfl fun j _ => ?_
    rw [kerMask_coe, EReal.coe_mul]
  have h1 : kerS1 (fun i k => (p i k : EReal)) (fun j => (μ j : EReal)) i
      = ((∑ j : Fin 8192, rG p μ i j : ℝ) : EReal) := by
    rw [kerS1, coe_sum]
    refine Finset.sum_congr rfl fun j _ => ?_
    rw [kerMask_coe, one_eq, mul_one]
  rw [kerForce, h2, h1, EReal.coe_sub, EReal.coe_mul]

/-- The reference's force on real inputs is the coercion of the real sum. -/
theorem refForce_coe (i : Fin 8192) (d : Fin 3) :
    refForce (fun i k => (p i k : EReal)) (fun j => (μ j : EReal)) i d
      = ((∑ j : Fin 8192, rF p μ i j * (p j d - p i d) : ℝ) : EReal) := by
  rw [refForce, zero_eq, zero_add, coe_sum]
  refine Finset.sum_congr rfl fun j _ => ?_
  rw [refMag_coe, EReal.coe_mul, EReal.coe_sub]

end Assemble

/-- When every position and every mass is a real number, the kernel's formula and the reference's formula
    give the same force. -/
theorem force_eq (P : Fin 8192 → Fin 3 → EReal) (M : Fin 8192 → EReal)
    (hP : ∀ i k, ∃ r : ℝ, P i k = (r : EReal)) (hM : ∀ j, ∃ r : ℝ, M j = (r : EReal))
    (i : Fin 8192) (d : Fin 3) : kerForce P M i d = refForce P M i d := by
  choose p hp using hP
  choose μ hμ using hM
  obtain rfl : P = fun i k => (p i k : EReal) := funext fun i => funext fun k => hp i k
  obtain rfl : M = fun j => (μ j : EReal) := funext hμ
  rw [kerForce_coe, refForce_coe, real_law]

end Cert.Force

end
-- ==== Proof.lean ====
/-
  All-pairs softened gravitational forces on 8192 particles: a pipelined kernel against a plain reference, equal as
  extended reals under finite inputs.

  The reference sums over every particle j the magnitude m_j · (|p_j − p_i|² + ε)^(−3/2) times the displacement
  p_j − p_i. The kernel works one block of 512 particles per grid point: in a loop over eight chunks of 1024
  particles it forms the magnitudes as the cube of the reciprocal square root, zeroes the entry of a particle with
  itself, and accumulates their matrix product with a table holding the positions in lanes 0..2 and ones in lane 3;
  the block's forces are lanes 0..2 of the accumulator minus the block's positions times lane 3.

  The three programs run to their ends without a fault and leave their arguments as launched: the two kernel
  programs by the run of the pipelined region (the body run once over a symbolic grid point, its loop over a
  symbolic trip), the reference by the run of its host operations. The idealized kernel is the kernel's own text
  read at the ideal instance: no operation was rewritten. At the ideal instance the kernel's result array is its
  force formula of the launched positions and masses, index by index; the reference's result read at an index is
  the reference's formula; and for real inputs the two formulas agree: the softened squared distance is a positive
  real, on which the cube of the reciprocal square root is the power −3/2; the self term contributes zero on both
  sides; and Σ_j f_ij · (p_j − p_i) = Σ_j f_ij · p_j − p_i · Σ_j f_ij over the reals.
-/
import proofs.«135620_j89704686944627_2_alg».proof.Defs
import proofs.«135620_j89704686944627_2_alg».proof.Proof.Gen.Kernel
import proofs.«135620_j89704686944627_2_alg».proof.Proof.Gen.KernelIdeal
import proofs.«135620_j89704686944627_2_alg».proof.Proof.Gen.ReferenceIdeal
import proofs.«135620_j89704686944627_2_alg».proof.Proof.Gen.ReferenceIdeal.Run
import proofs.«135620_j89704686944627_2_alg».proof.Proof.Gen.ReferenceIdeal.Read
import proofs.«135620_j89704686944627_2_alg».proof.Proof.Gen.Pre_finite_inputs
import proofs.«135620_j89704686944627_2_alg».proof.Proof.FrameB
import proofs.«135620_j89704686944627_2_alg».proof.Proof.KernelValueI
import proofs.«135620_j89704686944627_2_alg».proof.Proof.RefRead
import proofs.«135620_j89704686944627_2_alg».proof.Proof.Finite
import proofs.«135620_j89704686944627_2_alg».proof.Proof.ForceLaw
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs to its end and leaves its arguments as launched. -/
theorem frame_p : Cert.frame_Kernel := fun m ρ _ => Cert.Kernel.Hand.frame m ρ

/-- So does the kernel read at the ideal instance. -/
theorem frame_pi : Cert.frame_KernelIdeal := fun m ρ _ => Cert.KernelIdeal.Hand.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- From memories agreeing on the positions and the masses, both finite, the kernel's result array ends at its
    force formula and the reference's at its own, and the two formulas agree on real inputs. -/
theorem algebraic : Cert.algebraic_KernelIdeal_ReferenceIdeal := by
  intro m ρ m' ρ' hpre hagree
  refine ⟨fun c => Cert.KernelIdeal.Hand.forceOf m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq (F := Ideal) _ _).trans ?_
  rw [(hagree c).1, (hagree c).2]
  funext y
  obtain ⟨i, d, rfl⟩ : ∃ (i : Fin 8192) (d : Fin 3), y = ix2 i d := ⟨y 0, y 1, eq_ix2 y⟩
  rw [Cert.Force.Ref.ref_apply]
  exact (Cert.Force.force_eq _ _ (fun a k => Cert.Force.Fin.finite_pos m hpre c a k)
    (fun j => Cert.Force.Fin.finite_mass m hpre c j) i d).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
